-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1000000 : Shape := ⟨2, ![2, 1000000]⟩
abbrev S5x64 : Shape := ⟨2, ![5, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S128x64 .f32) (main_arg20 : FVec F S64 .f32) (main_arg21 : FVec F S64x1 .f32) (main_arg22 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S128x64 .f32 := Host.absf main_arg19
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg21
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S64x64 .f32) (main_arg16 : FVec F S64x64 .f32) (main_arg17 : FVec F S64 .f32) (main_arg18 : FVec F S64x64 .f32) (main_arg19 : FVec F S128x64 .f32) (main_arg20 : FVec F S64 .f32) (main_arg21 : FVec F S64x1 .f32) (main_arg22 : FVec F S1 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S128x64 .f32) (main_arg20 : FVec F S64 .f32) (main_arg21 : FVec F S64x1 .f32) (main_arg22 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S128x64 .f32) (main_arg20 : FVec F S64 .f32) (main_arg21 : FVec F S64x1 .f32) (main_arg22 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S5x64 .f32) (main_arg6 : FVec F S64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S128x64 .f32) (main_arg20 : FVec F S64 .f32) (main_arg21 : FVec F S64x1 .f32) (main_arg22 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S5x64 .f32 := Host.absf main_arg5
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x5 .f32) (main_arg1 : FVec F S100000x5 .f32) (main_arg2 : IVec S2x1000000 32) (main_arg3 : FVec F S5x64 .f32) (main_arg4 : FVec F S64 .f32) (main_arg5 : FVec F S5x64 .f32) (main_arg6 : FVec F S64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S128x64 .f32) (main_arg20 : FVec F S64 .f32) (main_arg21 : FVec F S64x1 .f32) (main_arg22 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S5x64 .f32 := Host.absf main_arg3
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x5 : Shape := ⟨2, ![100000, 5]⟩
abbrev S2x1000000 : Shape := ⟨2, ![2, 1000000]⟩
abbrev S5x64 : Shape := ⟨2, ![5, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S5000x64 : Shape := ⟨2, ![5000, 64]⟩
abbrev S1000000x128 : Shape := ⟨2, ![1000000, 128]⟩
abbrev S1x1 : Shape := ⟨2, ![1, 1]⟩
abbrev S5000x128 : Shape := ⟨2, ![5000, 128]⟩
abbrev S5000x1 : Shape := ⟨2, ![5000, 1]⟩

abbrev nBuf : Space → Nat
  | .hbm => 165
  | .vmem => 44
  | .smem => 0
  | _ => 0

abbrev hbmTy0_0 (i : Nat) : BufTy := match i % 128 with
  | 0 => ⟨S100000x5, .f32⟩
  | 1 => ⟨S100000x5, .f32⟩
  | 2 => ⟨S2x1000000, .i32⟩
  | 3 => ⟨S5x64, .f32⟩
  | 4 => ⟨S64, .f32⟩
  | 5 => ⟨S5x64, .f32⟩
  | 6 => ⟨S64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x64, .f32⟩
  | 19 => ⟨S128x64, .f32⟩
  | 20 => ⟨S64, .f32⟩
  | 21 => ⟨S64x1, .f32⟩
  | 22 => ⟨S1, .f32⟩
  | 23 => ⟨S1x1000000, .i32⟩
  | 24 => ⟨S1000000, .i32⟩
  | 25 => ⟨S1x1000000, .i32⟩
  | 26 => ⟨S1000000, .i32⟩
  | 27 => ⟨S100000x64, .f32⟩
  | 28 => ⟨S1x64, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S_, .f32⟩
  | 45 => ⟨S100000x64, .f32⟩
  | 46 => ⟨S1000000x1, .i32⟩
  | 47 => ⟨S100000x64, .f32⟩
  | 48 => ⟨S_, .f32⟩
  | 49 => ⟨S1000000, .f32⟩
  | 50 => ⟨S_, .f32⟩
  | 51 => ⟨S100000, .f32⟩
  | 52 => ⟨S1000000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x64, .f32⟩
  | 59 => ⟨S100000x64, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S_, .f32⟩
  | 70 => ⟨S100000x64, .f32⟩
  | 71 => ⟨S1000000x1, .i32⟩
  | 72 => ⟨S100000x64, .f32⟩
  | 73 => ⟨S_, .f32⟩
  | 74 => ⟨S1000000, .f32⟩
  | 75 => ⟨S_, .f32⟩
  | 76 => ⟨S100000, .f32⟩
  | 77 => ⟨S1000000x1, .i32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x64, .f32⟩
  | 84 => ⟨S100000x64, .f32⟩
  | 85 => ⟨S1x64, .f32⟩
  | 86 => ⟨S100000x64, .f32⟩
  | 87 => ⟨S1x64, .f32⟩
  | 88 => ⟨S100000x64, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S_, .f32⟩
  | 99 => ⟨S100000x64, .f32⟩
  | 100 => ⟨S1000000x1, .i32⟩
  | 101 => ⟨S100000x64, .f32⟩
  | 102 => ⟨S_, .f32⟩
  | 103 => ⟨S1000000, .f32⟩
  | 104 => ⟨S_, .f32⟩
  | 105 => ⟨S100000, .f32⟩
  | 106 => ⟨S1000000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S_, .f32⟩
  | 124 => ⟨S100000x64, .f32⟩
  | 125 => ⟨S1000000x1, .i32⟩
  | 126 => ⟨S100000x64, .f32⟩
  | 127 => ⟨S_, .f32⟩
  | _ => ⟨S100000x5, .f32⟩

abbrev hbmTy0_1 (i : Nat) : BufTy := match i % 128 with
  | 0 => ⟨S1000000, .f32⟩
  | 1 => ⟨S_, .f32⟩
  | 2 => ⟨S100000, .f32⟩
  | 3 => ⟨S1000000x1, .i32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S1x64, .f32⟩
  | 12 => ⟨S100000x64, .f32⟩
  | 13 => ⟨S1x64, .f32⟩
  | 14 => ⟨S100000x64, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x64, .f32⟩
  | 33 => ⟨S1000000x128, .f32⟩
  | 34 => ⟨S1x64, .f32⟩
  | 35 => ⟨S1x1, .f32⟩
  | 36 => ⟨S1000000x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S5000x64, .f32⟩
  | .local _ .vmem, ⟨35, _⟩ => ⟨S5000x64, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S1x64, .f32⟩
  | .local _ .vmem, ⟨40, _⟩ => ⟨S64x1, .f32⟩
  | .local _ .vmem, ⟨41, _⟩ => ⟨S1x1, .f32⟩
  | .local _ .vmem, ⟨42, _⟩ => ⟨S5000x1, .f32⟩
  | .local _ .vmem, ⟨43, _⟩ => ⟨S5000x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_10 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_16 : Ref sig .tc := ⟨.hbm, 114, rfl⟩
abbrev main_v73 : Ref sig .tc := ⟨.hbm, 115, rfl⟩
abbrev main_v74 : Ref sig .tc := ⟨.hbm, 116, rfl⟩
abbrev main_c_17 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_18 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_19 : Ref sig .tc := ⟨.hbm, 127, rfl⟩
abbrev main_v83 : Ref sig .tc := ⟨.hbm, 128, rfl⟩
abbrev main_cst_20 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_21 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_22 : Ref sig .tc := ⟨.hbm, 143, rfl⟩
abbrev main_v96 : Ref sig .tc := ⟨.hbm, 144, rfl⟩
abbrev main_v97 : Ref sig .tc := ⟨.hbm, 145, rfl⟩
abbrev main_c_23 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_24 : Ref sig .tc := ⟨.hbm, 152, rfl⟩
abbrev main_v103 : Ref sig .tc := ⟨.hbm, 153, rfl⟩
abbrev main_v104 : Ref sig .tc := ⟨.hbm, 154, rfl⟩
abbrev main_c_25 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S1000000x64_S1000000x64_S1000000x128_d1 : Shape.Concatenates [S1000000x64, S1000000x64] S1000000x128 1
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S100000x5_S5x64_S100000x64_1_0_0_1_n_n_wf : DotDims.WF S100000x5 S5x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S1000000x128.size a
  hwx4_0 : ∀ i : grid4.Coords, EltTy.bits .f32 = 32 ∨ (Rect.block (s := S1000000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S1000000x1.size a
  hwx4_5 : ∀ i : grid4.Coords, EltTy.bits .f32 = 32 ∨ (Rect.block (s := S1000000x1) S5000x1.size (cc4_transform_5 i) (hinb4_5 i)).WholeWords (EltTy.packing .f32)

variable [Facts₀]

def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v30) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v93) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v91) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v110) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg19) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v111) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v112) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v113) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x5 : Shape := ⟨2, ![100000, 5]⟩
abbrev S2x1000000 : Shape := ⟨2, ![2, 1000000]⟩
abbrev S5x64 : Shape := ⟨2, ![5, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1000000x128 : Shape := ⟨2, ![1000000, 128]⟩
abbrev S1x1 : Shape := ⟨2, ![1, 1]⟩

abbrev nBuf : Space → Nat
  | .hbm => 203
  | .vmem => 0
  | .smem => 0
  | _ => 0

abbrev hbmTy0_0 (i : Nat) : BufTy := match i % 128 with
  | 0 => ⟨S100000x5, .f32⟩
  | 1 => ⟨S100000x5, .f32⟩
  | 2 => ⟨S2x1000000, .i32⟩
  | 3 => ⟨S5x64, .f32⟩
  | 4 => ⟨S64, .f32⟩
  | 5 => ⟨S5x64, .f32⟩
  | 6 => ⟨S64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x64, .f32⟩
  | 19 => ⟨S128x64, .f32⟩
  | 20 => ⟨S64, .f32⟩
  | 21 => ⟨S64x1, .f32⟩
  | 22 => ⟨S1, .f32⟩
  | 23 => ⟨S1x1000000, .i32⟩
  | 24 => ⟨S1000000, .i32⟩
  | 25 => ⟨S1x1000000, .i32⟩
  | 26 => ⟨S1000000, .i32⟩
  | 27 => ⟨S100000x64, .f32⟩
  | 28 => ⟨S1x64, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S_, .f32⟩
  | 45 => ⟨S100000x64, .f32⟩
  | 46 => ⟨S1000000x1, .i32⟩
  | 47 => ⟨S100000x64, .f32⟩
  | 48 => ⟨S_, .f32⟩
  | 49 => ⟨S1000000, .f32⟩
  | 50 => ⟨S_, .f32⟩
  | 51 => ⟨S100000, .f32⟩
  | 52 => ⟨S1000000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S100000x64, .f32⟩
  | 65 => ⟨S100000x64, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x64, .f32⟩
  | 75 => ⟨S_, .f32⟩
  | 76 => ⟨S100000x64, .f32⟩
  | 77 => ⟨S1000000x1, .i32⟩
  | 78 => ⟨S100000x64, .f32⟩
  | 79 => ⟨S_, .f32⟩
  | 80 => ⟨S1000000, .f32⟩
  | 81 => ⟨S_, .f32⟩
  | 82 => ⟨S100000, .f32⟩
  | 83 => ⟨S1000000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x64, .f32⟩
  | 112 => ⟨S_, .f32⟩
  | 113 => ⟨S100000x64, .f32⟩
  | 114 => ⟨S1000000x1, .i32⟩
  | 115 => ⟨S100000x64, .f32⟩
  | 116 => ⟨S_, .f32⟩
  | 117 => ⟨S1000000, .f32⟩
  | 118 => ⟨S_, .f32⟩
  | 119 => ⟨S100000, .f32⟩
  | 120 => ⟨S1000000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x64, .f32⟩
  | 127 => ⟨S100000x64, .f32⟩
  | _ => ⟨S100000x5, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S100000x64, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S_, .f32⟩
  | 16 => ⟨S100000x64, .f32⟩
  | 17 => ⟨S1000000x1, .i32⟩
  | 18 => ⟨S100000x64, .f32⟩
  | 19 => ⟨S_, .f32⟩
  | 20 => ⟨S1000000, .f32⟩
  | 21 => ⟨S_, .f32⟩
  | 22 => ⟨S100000, .f32⟩
  | 23 => ⟨S1000000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S100000x64, .f32⟩
  | 36 => ⟨S100000x64, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x64, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S1000000x128, .f32⟩
  | 56 => ⟨S1000000x64, .f32⟩
  | 57 => ⟨S1x64, .f32⟩
  | 58 => ⟨S1000000x64, .f32⟩
  | 59 => ⟨S1000000x64, .f32⟩
  | 60 => ⟨S_, .f32⟩
  | 61 => ⟨S1000000x64, .f32⟩
  | 62 => ⟨S1000000x64, .f32⟩
  | 63 => ⟨S1000000x1, .f32⟩
  | 64 => ⟨S1x1, .f32⟩
  | 65 => ⟨S1000000x1, .f32⟩
  | 66 => ⟨S1000000x1, .f32⟩
  | 67 => ⟨S1000000x1, .f32⟩
  | 68 => ⟨S1000000x1, .f32⟩
  | 69 => ⟨S_, .f32⟩
  | 70 => ⟨S1000000x1, .f32⟩
  | 71 => ⟨S1000000x1, .f32⟩
  | 72 => ⟨S_, .f32⟩
  | 73 => ⟨S1000000x1, .f32⟩
  | 74 => ⟨S1000000x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_4 : Ref sig .tc := ⟨.hbm, 66, rfl⟩
abbrev main_v37 : Ref sig .tc := ⟨.hbm, 67, rfl⟩
abbrev main_v38 : Ref sig .tc := ⟨.hbm, 68, rfl⟩
abbrev main_c_5 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call0_cst : Ref sig .tc := ⟨.hbm, 97, rfl⟩
abbrev main_call0_v0 : Ref sig .tc := ⟨.hbm, 98, rfl⟩
abbrev main_v62 : Ref sig .tc := ⟨.hbm, 99, rfl⟩
abbrev main_call1_cst : Ref sig .tc := ⟨.hbm, 100, rfl⟩
abbrev main_call1_v0 : Ref sig .tc := ⟨.hbm, 101, rfl⟩
abbrev main_v63 : Ref sig .tc := ⟨.hbm, 102, rfl⟩
abbrev main_c_10 : Ref sig .tc := ⟨.hbm, 103, rfl⟩
abbrev main_v64 : Ref sig .tc := ⟨.hbm, 104, rfl⟩
abbrev main_v65 : Ref sig .tc := ⟨.hbm, 105, rfl⟩
abbrev main_c_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_13 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_15 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_16 : Ref sig .tc := ⟨.hbm, 134, rfl⟩
abbrev main_v89 : Ref sig .tc := ⟨.hbm, 135, rfl⟩
abbrev main_v90 : Ref sig .tc := ⟨.hbm, 136, rfl⟩
abbrev main_c_17 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_18 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_19 : Ref sig .tc := ⟨.hbm, 147, rfl⟩
abbrev main_v99 : Ref sig .tc := ⟨.hbm, 148, rfl⟩
abbrev main_cst_20 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_21 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_22 : Ref sig .tc := ⟨.hbm, 165, rfl⟩
abbrev main_v114 : Ref sig .tc := ⟨.hbm, 166, rfl⟩
abbrev main_v115 : Ref sig .tc := ⟨.hbm, 167, rfl⟩
abbrev main_c_23 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_c_24 : Ref sig .tc := ⟨.hbm, 174, rfl⟩
abbrev main_v121 : Ref sig .tc := ⟨.hbm, 175, rfl⟩
abbrev main_v122 : Ref sig .tc := ⟨.hbm, 176, rfl⟩
abbrev main_c_25 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_call2_cst : Ref sig .tc := ⟨.hbm, 188, rfl⟩
abbrev main_call2_v0 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_26 : Ref sig .tc := ⟨.hbm, 197, rfl⟩
abbrev main_v140 : Ref sig .tc := ⟨.hbm, 198, rfl⟩
abbrev main_v141 : Ref sig .tc := ⟨.hbm, 199, rfl⟩
abbrev main_cst_27 : Ref sig .tc := ⟨.hbm, 200, rfl⟩
abbrev main_v142 : Ref sig .tc := ⟨.hbm, 201, rfl⟩
abbrev main_v143 : Ref sig .tc := ⟨.hbm, 202, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S1000000x64_S1000000x64_S1000000x128_d1 : Shape.Concatenates [S1000000x64, S1000000x64] S1000000x128 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  dot_S100000x5_S5x64_S100000x64_1_0_0_1_n_n_wf : DotDims.WF S100000x5 S5x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.KRun.lean ====
/-
  The kernel program's run with its RESULT named.

  Every weakly fair execution of the program (five kernel regions among stretches of host operations) from a memory with
  zero counters terminates without a fault; in the final state every buffer of the TensorCore holds the contents the
  last boundary of the run assigns to it. Read at the result buffer this says: the result array ends holding what the
  fifth region's write-backs leave (the boundary contents `Gen.W10` at the result); read at each argument it says the
  argument is unchanged. The run itself is the launch of the segments one after the other; only the reading of the
  final state differs from the statement that keeps the arguments alone.
-/
import proofs.«122769_j16733192585664_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v113) = W10 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v113 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c)⟩)

end Cert.KernelIdeal.KRun

end
-- ==== Proof.Spec.lean ====
/-
  The two functions this program computes between its irregular (gather / scatter) steps, written once on the extended
  reals over matrices with any number of rows.

  `linAt`: one entry (r, q) of a mean-aggregating graph-convolution layer's dense step,
      ((Σ_k mean(r,k)·Wl(k,q)) + b(0,q)) + Σ_k x(r,k)·Wr(k,q),
  with the bias a one-row matrix; `lin` is the whole matrix and `linRelu` its entrywise maximum with zero.
  `mlpAt`: one row r of the edge classifier,
      logistic((Σ_k max((Σ_j x(r,j)·W1(j,k)) + b1(0,k), 0)·W2(k,0)) + b2(0,0)).
  Every entry depends only on row r of the row-indexed operands, which is why a computation block by block of rows
  and a computation on the whole matrix agree; no law of arithmetic beyond that is used, so infinite entries need no care.
-/
import Idealize.ShloMosaic.PureOps.Ideal
import Idealize.ShloMosaic.Lib.ValueIdx

noncomputable section

namespace Cert.SageSpec

open Idealize.ShloMosaic Idealize.ShloMosaic.ValueIdx

/-- An r × c matrix of extended reals, indexed as an array of that shape. -/
abbrev Mat (r c : Nat) : Type := (⟨2, ![r, c]⟩ : Shape).Idx → EReal

/-- Entry (r, q) of the dense step of one layer. -/
def linAt {n : Nat} (mean xdst : Mat n 64) (Wl : Mat 64 64) (b : Mat 1 64) (Wr : Mat 64 64) (r : Fin n) (q : Fin 64) : EReal :=
  ((∑ k : Fin 64, mean (ix2 r k) * Wl (ix2 k q)) + b (ix2 0 q)) + ∑ k : Fin 64, xdst (ix2 r k) * Wr (ix2 k q)

/-- The dense step of one layer. -/
def lin {n : Nat} (mean xdst : Mat n 64) (Wl : Mat 64 64) (b : Mat 1 64) (Wr : Mat 64 64) : Mat n 64 :=
  fun i => linAt mean xdst Wl b Wr (i 0) (i 1)

/-- The dense step followed by the rectifier. -/
def linRelu {n : Nat} (mean xdst : Mat n 64) (Wl : Mat 64 64) (b : Mat 1 64) (Wr : Mat 64 64) : Mat n 64 :=
  fun i => max (linAt mean xdst Wl b Wr (i 0) (i 1)) 0

/-- Row r of the edge classifier: a hidden layer of 64 rectified units, one logistic output. -/
def mlpAt {n : Nat} (x : Mat n 128) (W1 : Mat 128 64) (b1 : Mat 1 64) (W2 : Mat 64 1) (b2 : Mat 1 1) (r : Fin n) : EReal :=
  Ideal.logistic ((∑ k : Fin 64, max ((∑ j : Fin 128, x (ix2 r j) * W1 (ix2 j k)) + b1 (ix2 0 k)) 0 * W2 (ix2 k 0)) + b2 (ix2 0 0))

/-- The edge classifier on every row. -/
def mlp {n : Nat} (x : Mat n 128) (W1 : Mat 128 64) (b1 : Mat 1 64) (W2 : Mat 64 1) (b2 : Mat 1 1) : Mat n 1 :=
  fun i => mlpAt x W1 b1 W2 b2 (i 0)

end Cert.SageSpec

end
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.Host.lean ====
/-
  The host stretches of the kernel program, read against the reference's stages.

  Between its five kernel regions the kernel program applies the same host operations as the reference does between its
  dense steps: slicing the edge list into source and target rows, the two input projections, and, per layer and
  direction, a gather of rows, a scatter-add into the target rows and into a count, and the quotient by the count
  clamped below by one; at the end two gathers joined side by side. Each lemma here evaluates one stretch from an
  ARBITRARY valuation W of the buffers at one result buffer and says the result is the reference's stage of the same
  meaning, given that the buffers the stretch reads hold the reference's stages that feed it. Nothing is opened: the two
  sides are the same operations applied to the same operands. A buffer a stretch does not write keeps its contents.
-/
import proofs.«122769_j16733192585664_1_alg».proof.Proof.Gen.KernelIdeal.Frame
import proofs.«122769_j16733192585664_1_alg».proof.Proof.Gen.ReferenceIdeal.Read
import proofs.«122769_j16733192585664_1_alg».proof.Proof.LibAfterResultsCat
import Idealize.ShloMosaic.Lib.StableHlo.Run

set_option maxRecDepth 16384

noncomputable section

namespace Cert.KernelIdeal.Host

open Cert.KernelIdeal Cert.KernelIdeal.Gen Cert.ReferenceIdeal.Read
open Idealize.ShloMosaic Idealize.ShloMosaic.TcCoe Idealize.SL.Sem Idealize.ShloMosaic.StableHlo

/-! ## What each stretch writes, and that it writes nothing else -/

/-- The buffers the first stretch writes. -/
abbrev wr0 : List (Ref sig .tc) :=
  [main_v0, main_v1, main_v2, main_v3, main_v4, main_v5, main_v6, main_v7, main_v8, main_v9, main_v10, main_v11, main_c,
   main_v12, main_v13, main_c_0, main_v14, main_v15, main_v16, main_v17, main_v18, main_cst, main_v19, main_v20, main_v21,
   main_cst_1, main_v22, main_cst_2, main_v23, main_v24, main_v25, main_cst_3, main_v26, main_v27, main_v28, main_v29,
   main_v30, main_c_4, main_v31, main_v32, main_c_5, main_v33, main_v34, main_v35, main_v36, main_v37, main_cst_6,
   main_v38, main_v39, main_v40, main_cst_7, main_v41, main_cst_8, main_v42, main_v43, main_v44, main_cst_9, main_v45,
   main_v46, main_v47, main_v48, main_v49, main_v50]
/-- The second stretch writes one bias row. -/
abbrev wr1 : List (Ref sig .tc) := [main_v52]
/-- The buffers the third stretch writes. -/
abbrev wr2 : List (Ref sig .tc) :=
  [main_c_10, main_v54, main_v55, main_c_11, main_v56, main_v57, main_v58, main_v59, main_v60, main_cst_12, main_v61,
   main_v62, main_v63, main_cst_13, main_v64, main_cst_14, main_v65, main_v66, main_v67, main_cst_15, main_v68, main_v69,
   main_v70, main_v71, main_v72, main_c_16, main_v73, main_v74, main_c_17, main_v75, main_v76, main_v77, main_v78,
   main_v79, main_cst_18, main_v80, main_v81, main_v82, main_cst_19, main_v83, main_cst_20, main_v84, main_v85, main_v86,
   main_cst_21, main_v87, main_v88, main_v89, main_v90, main_v91, main_v92]
/-- The fourth stretch writes one bias row. -/
abbrev wr3 : List (Ref sig .tc) := [main_v94]
/-- The buffers the last stretch writes. -/
abbrev wr4 : List (Ref sig .tc) :=
  [main_c_22, main_v96, main_v97, main_c_23, main_v98, main_v99, main_v100, main_v101, main_v102, main_c_24, main_v103,
   main_v104, main_c_25, main_v105, main_v106, main_v107, main_v108, main_v109, main_v110, main_v111, main_v112]

theorem writes0 : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem writes1 : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem writes2 : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem writes3 : (hostOps3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem writes4 : (hostOps4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (W : Valuation τ sig (Elt Ideal))

theorem keep0 (r : Ref sig .tc) (h : r ∉ wr0) : after hostOps0 W (Proc.devRef .tc r) = W (Proc.devRef .tc r) :=
  after_of_writes_sub hostOps0 _ writes0 h
theorem keep1 (r : Ref sig .tc) (h : r ∉ wr1) : after hostOps1 W (Proc.devRef .tc r) = W (Proc.devRef .tc r) :=
  after_of_writes_sub hostOps1 _ writes1 h
theorem keep2 (r : Ref sig .tc) (h : r ∉ wr2) : after hostOps2 W (Proc.devRef .tc r) = W (Proc.devRef .tc r) :=
  after_of_writes_sub hostOps2 _ writes2 h
theorem keep3 (r : Ref sig .tc) (h : r ∉ wr3) : after hostOps3 W (Proc.devRef .tc r) = W (Proc.devRef .tc r) :=
  after_of_writes_sub hostOps3 _ writes3 h
theorem keep4 (r : Ref sig .tc) (h : r ∉ wr4) : after hostOps4 W (Proc.devRef .tc r) = W (Proc.devRef .tc r) :=
  after_of_writes_sub hostOps4 _ writes4 h

set_option quotPrecheck false in
local notation "⟪" b "⟫" => W (Proc.devRef .tc b)

/-! ## The first stretch: the edge rows, the projections, the first layer's two means, a bias row -/

/-- The source rows of the edges. -/
theorem s0_v1 : after hostOps0 W (Proc.devRef .tc main_v1) = val_main_v1 (F := Ideal) ⟪main_arg2⟫ := by
  after_results_simp <;> rfl
/-- The target rows of the edges. -/
theorem s0_v3 : after hostOps0 W (Proc.devRef .tc main_v3) = val_main_v3 (F := Ideal) ⟪main_arg2⟫ := by
  after_results_simp <;> rfl
/-- The first projection. -/
theorem s0_v7 : after hostOps0 W (Proc.devRef .tc main_v7) = val_main_v7 (F := Ideal) ⟪main_arg0⟫ ⟪main_arg3⟫ ⟪main_arg4⟫ := by
  after_results_simp <;> rfl
/-- The second projection. -/
theorem s0_v11 : after hostOps0 W (Proc.devRef .tc main_v11) = val_main_v11 (F := Ideal) ⟪main_arg1⟫ ⟪main_arg5⟫ ⟪main_arg6⟫ := by
  after_results_simp <;> rfl
/-- The mean of the first projection's rows over each target's incoming edges. -/
theorem s0_v30 : after hostOps0 W (Proc.devRef .tc main_v30)
    = val_main_v30 (F := Ideal) ⟪main_arg0⟫ ⟪main_arg2⟫ ⟪main_arg3⟫ ⟪main_arg4⟫ := by
  after_results_simp <;> rfl
/-- The mean of the second projection's rows over each source's outgoing edges. -/
theorem s0_v49 : after hostOps0 W (Proc.devRef .tc main_v49)
    = val_main_v55 (F := Ideal) ⟪main_arg1⟫ ⟪main_arg2⟫ ⟪main_arg5⟫ ⟪main_arg6⟫ := by
  after_results_simp <;> rfl
/-- A bias vector laid out as one row. -/
theorem s0_v50 : after hostOps0 W (Proc.devRef .tc main_v50) = shapeCast S1x64 ⟪main_arg8⟫ shapeCasts_S64_S1x64 := by
  after_results_simp <;> rfl

/-! ## The one-operation stretches: a bias vector laid out as one row -/

theorem s1_v52 : after hostOps1 W (Proc.devRef .tc main_v52) = shapeCast S1x64 ⟪main_arg11⟫ shapeCasts_S64_S1x64 := by
  after_results <;> rfl
theorem s3_v94 : after hostOps3 W (Proc.devRef .tc main_v94) = shapeCast S1x64 ⟪main_arg17⟫ shapeCasts_S64_S1x64 := by
  after_results <;> rfl

/-! ## The third and the last stretch, given what the regions before them left -/

variable (x0 x1 : (⟨S100000x5, .f32⟩ : BufTy).Contents (Elt Ideal)) (x2 : (⟨S2x1000000, .i32⟩ : BufTy).Contents (Elt Ideal))
  (x3 : (⟨S5x64, .f32⟩ : BufTy).Contents (Elt Ideal)) (x4 : (⟨S64, .f32⟩ : BufTy).Contents (Elt Ideal))
  (x5 : (⟨S5x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
  (x9 x10 : (⟨S64x64, .f32⟩ : BufTy).Contents (Elt Ideal)) (x11 : (⟨S64, .f32⟩ : BufTy).Contents (Elt Ideal))
  (x12 x13 : (⟨S64x64, .f32⟩ : BufTy).Contents (Elt Ideal)) (x14 : (⟨S64, .f32⟩ : BufTy).Contents (Elt Ideal))
  (x15 x16 : (⟨S64x64, .f32⟩ : BufTy).Contents (Elt Ideal)) (x17 : (⟨S64, .f32⟩ : BufTy).Contents (Elt Ideal))
  (x18 : (⟨S64x64, .f32⟩ : BufTy).Contents (Elt Ideal))

/-- The second layer's mean over each target's incoming edges, of the first layer's source-side output. -/
theorem s2_v72
    (h53 : ⟪main_v53⟫ = val_main_v63 (F := Ideal) x0 x1 x2 x3 x4 x5 x6 x10 x11 x12)
    (h1 : ⟪main_v1⟫ = val_main_v1 (F := Ideal) x2) (h3 : ⟪main_v3⟫ = val_main_v3 (F := Ideal) x2) :
    after hostOps2 W (Proc.devRef .tc main_v72) = val_main_v82 (F := Ideal) x0 x1 x2 x3 x4 x5 x6 x10 x11 x12 := by
  after_results_simp
  rw [h53, h1, h3]
  rfl
/-- The second layer's mean over each source's outgoing edges, of the first layer's target-side output. -/
theorem s2_v91
    (h51 : ⟪main_v51⟫ = val_main_v62 (F := Ideal) x0 x1 x2 x3 x4 x5 x6 x7 x8 x9)
    (h1 : ⟪main_v1⟫ = val_main_v1 (F := Ideal) x2) (h3 : ⟪main_v3⟫ = val_main_v3 (F := Ideal) x2) :
    after hostOps2 W (Proc.devRef .tc main_v91) = val_main_v107 (F := Ideal) x0 x1 x2 x3 x4 x5 x6 x7 x8 x9 := by
  after_results_simp
  rw [h51, h1, h3]
  rfl
/-- A bias vector laid out as one row. -/
theorem s2_v92 : after hostOps2 W (Proc.devRef .tc main_v92) = shapeCast S1x64 ⟪main_arg14⟫ shapeCasts_S64_S1x64 := by
  after_results_simp <;> rfl

/-- The edge classifier's input: the source-side rows of the second layer at each edge's source beside the target-side
    rows at its target. -/
theorem s4_v110
    (h95 : ⟪main_v95⟫ = val_main_v113 (F := Ideal) x0 x1 x2 x3 x4 x5 x6 x7 x8 x9 x10 x11 x12 x16 x17 x18)
    (h93 : ⟪main_v93⟫ = val_main_v88 (F := Ideal) x0 x1 x2 x3 x4 x5 x6 x7 x8 x9 x10 x11 x12 x13 x14 x15)
    (h1 : ⟪main_v1⟫ = val_main_v1 (F := Ideal) x2) (h3 : ⟪main_v3⟫ = val_main_v3 (F := Ideal) x2) :
    after hostOps4 W (Proc.devRef .tc main_v110)
      = val_main_v128 (F := Ideal) x0 x1 x2 x3 x4 x5 x6 x7 x8 x9 x10 x11 x12 x13 x14 x15 x16 x17 x18 := by
  after_results_cat
  rw [h95, h93, h1, h3]
  rfl
/-- The two bias vectors of the edge classifier laid out as a row and as a one-entry matrix. -/
theorem s4_v111 : after hostOps4 W (Proc.devRef .tc main_v111) = shapeCast S1x64 ⟪main_arg20⟫ shapeCasts_S64_S1x64 := by
  after_results_simp <;> rfl
theorem s4_v112 : after hostOps4 W (Proc.devRef .tc main_v112) = shapeCast S1x1 ⟪main_arg22⟫ shapeCasts_S1_S1x1 := by
  after_results_simp <;> rfl

end Cert.KernelIdeal.Host

end
-- ==== Proof.LibPlainDot.lean ====
/-
  A matrix product read entry by entry.

  For a contraction of the second axis of an [M, K] matrix with the first axis of a [K, N] matrix — whatever record of
  dimension numbers spells it, as long as its operand indices at an output entry (r, c) and a contraction coordinate k
  are (r, k) and (k, c) — the sum over the record's contraction index type is the ordinary sum over `k : Fin K` of
  `x (r, k) * w (k, c)`. On the extended reals this is what both a block product on the matrix unit (into a zero
  accumulator) and a host `dot_general` denote, so the two meet in this one form.
-/
import Idealize.ShloMosaic.PureOps.Ideal.Laws
import Idealize.ShloMosaic.Lib.ValueIdx

namespace Idealize.ShloMosaic.PlainDot

open Idealize.ShloMosaic Idealize.ShloMosaic.ValueIdx

/-- The contraction sum of a plain two-dimensional product, re-indexed by the contracted coordinate. The four
    hypotheses say where the record reads its operands: the left one at (row of the entry, k), the right one at
    (k, column of the entry). -/
theorem sum_contr {M K N : Nat} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal)
    (i : (⟨2, ![M, N]⟩ : Shape).Idx) :
    ∑ q : D.contr.Idx, x (D.lhsIdx i q) * w (D.rhsIdx i q) = ∑ k : Fin K, x (ix2 (i 0) k) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact l0 _ _
    | ⟨1, _⟩ => exact (l1 _ _).trans hk)
  have er : D.rhsIdx i ((contrEquiv1 D K hr hs).symm k) = ix2 k (i 1) := funext fun a => Fin.ext (by
    match a with
    | ⟨0, _⟩ => exact (r0 _ _).trans hk
    | ⟨1, _⟩ => exact r1 _ _)
  rw [el, er]
  rfl

/-- A product on the matrix unit into a zero accumulator, at an entry: the sum over the contracted coordinate. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (x : FVec Ideal ⟨2, ![M, K]⟩ φ₁) (w : FVec Ideal ⟨2, ![K, N]⟩ φ₂)
    (i : (⟨2, ![M, N]⟩ : Shape).Idx) :
    FloatOps.matmul D prec x w (constant ⟨2, ![M, N]⟩ .f32 0x00000000#32) i
      = ∑ k : Fin K, x (ix2 (i 0) k) * w (ix2 k (i 1)) :=
  (Ideal.matmul_constant_zero_apply D prec x w i).trans (sum_contr D hr hs l0 l1 r0 r1 x w i)

/-- A host `dot_general` at an entry: the same sum. -/
theorem dotGeneral_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (sched : HostSchedule) (x : FVec Ideal ⟨2, ![M, K]⟩ φ₁) (w : FVec Ideal ⟨2, ![K, N]⟩ φ₂)
    (i : (⟨2, ![M, N]⟩ : Shape).Idx) :
    FloatOps.dotGeneral D prec sched x w i = ∑ k : Fin K, x (ix2 (i 0) k) * w (ix2 k (i 1)) :=
  (Ideal.dotGeneral_apply D prec sched x w i).trans (sum_contr D hr hs l0 l1 r0 r1 x w i)

end Idealize.ShloMosaic.PlainDot
-- ==== Proof.RefStages.lean ====
/-
  The reference's dense stages are the specification.

  Between its gathers and scatters the reference computes, four times, one dense step of a mean-aggregating graph
  convolution — a product of the aggregated neighbours with one weight matrix, plus a bias row, plus a product of the
  node's own features with a second weight matrix (the first layer followed by a maximum with zero) — and, at the end,
  a two-layer classifier on every edge: a rectified hidden layer of 64 units and one logistic output. Each of these
  stages is read here at an entry (r, q): every product is the plain sum over the contracted coordinate, every
  broadcast of a bias reads the bias at the column, and the quotient 1 / (1 + exp (-z)) is the logistic function by
  its definition. What the stages are applied to (the aggregated means, the gathered rows) stays an opaque matrix.
-/
import proofs.«122769_j16733192585664_1_alg».proof.Proof.Gen.ReferenceIdeal.Read
import proofs.«122769_j16733192585664_1_alg».proof.Proof.Spec
import proofs.«122769_j16733192585664_1_alg».proof.Proof.LibPlainDot

noncomputable section

namespace Cert.ReferenceIdeal.Stages

open Cert.ReferenceIdeal Cert.ReferenceIdeal.Read Idealize.ShloMosaic Idealize.ShloMosaic.ValueIdx

/-- A two-coordinate index with known coordinate values is the index built from them. -/
theorem eq_ix2_of_val {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- A one-coordinate index with a known coordinate value is the index built from it. -/
theorem eq_ix1_of_val {n : Nat} (j : (⟨1, ![n]⟩ : Shape).Idx) (a : Fin n) (h0 : (j 0).val = a.val) : j = ix1 a :=
  funext fun d => Fin.ext (by match d with | ⟨0, _⟩ => exact h0)

/-- The word 0x3F800000 denotes 1. -/
theorem ofBits_one_f32 : Ideal.ofBits .f32 0x3F800000#32 = 1 := IdealRules.sign_bit.ideal_onePat .f32

/-- The rectified dense step at an entry, written out. -/
theorem linRelu_entry {n : Nat} (mean xdst : Cert.SageSpec.Mat n 64) (Wl : Cert.SageSpec.Mat 64 64) (b : Cert.SageSpec.Mat 1 64)
    (Wr : Cert.SageSpec.Mat 64 64) (r : Fin n) (q : Fin 64) :
    Cert.SageSpec.linRelu mean xdst Wl b Wr (ix2 r q)
      = max (((∑ k : Fin 64, mean (ix2 r k) * Wl (ix2 k q)) + b (ix2 0 q)) + ∑ k : Fin 64, xdst (ix2 r k) * Wr (ix2 k q)) 0 := rfl

/-- The dense step at an entry, written out. -/
theorem lin_entry {n : Nat} (mean xdst : Cert.SageSpec.Mat n 64) (Wl : Cert.SageSpec.Mat 64 64) (b : Cert.SageSpec.Mat 1 64)
    (Wr : Cert.SageSpec.Mat 64 64) (r : Fin n) (q : Fin 64) :
    Cert.SageSpec.lin mean xdst Wl b Wr (ix2 r q)
      = ((∑ k : Fin 64, mean (ix2 r k) * Wl (ix2 k q)) + b (ix2 0 q)) + ∑ k : Fin 64, xdst (ix2 r k) * Wr (ix2 k q) := rfl

/-- The edge classifier at a row, written out, the logistic function as the quotient that defines it. -/
theorem mlp_entry {n : Nat} (x : Cert.SageSpec.Mat n 128) (W1 : Cert.SageSpec.Mat 128 64) (b1 : Cert.SageSpec.Mat 1 64)
    (W2 : Cert.SageSpec.Mat 64 1) (b2 : Cert.SageSpec.Mat 1 1) (r : Fin n) (z : Fin 1) :
    Cert.SageSpec.mlp x W1 b1 W2 b2 (ix2 r z)
      = Ideal.div 1 (1 + Ideal.exp (-((∑ k : Fin 64, max ((∑ j : Fin 128, x (ix2 r j) * W1 (ix2 j k)) + b1 (ix2 0 k)) 0 * W2 (ix2 k 0))
          + b2 (ix2 0 0)))) := rfl

variable (x0 x1 : (⟨S100000x5, .f32⟩ : BufTy).Contents (Elt Ideal)) (x2 : (⟨S2x1000000, .i32⟩ : BufTy).Contents (Elt Ideal))
  (x3 : (⟨S5x64, .f32⟩ : BufTy).Contents (Elt Ideal)) (x4 : (⟨S64, .f32⟩ : BufTy).Contents (Elt Ideal))
  (x5 : (⟨S5x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
  (x9 x10 : (⟨S64x64, .f32⟩ : BufTy).Contents (Elt Ideal)) (x11 : (⟨S64, .f32⟩ : BufTy).Contents (Elt Ideal))
  (x12 x13 : (⟨S64x64, .f32⟩ : BufTy).Contents (Elt Ideal)) (x14 : (⟨S64, .f32⟩ : BufTy).Contents (Elt Ideal))
  (x15 x16 : (⟨S64x64, .f32⟩ : BufTy).Contents (Elt Ideal)) (x17 : (⟨S64, .f32⟩ : BufTy).Contents (Elt Ideal))
  (x18 : (⟨S64x64, .f32⟩ : BufTy).Contents (Elt Ideal)) (x19 : (⟨S128x64, .f32⟩ : BufTy).Contents (Elt Ideal))
  (x20 : (⟨S64, .f32⟩ : BufTy).Contents (Elt Ideal)) (x21 : (⟨S64x1, .f32⟩ : BufTy).Contents (Elt Ideal))
  (x22 : (⟨S1, .f32⟩ : BufTy).Contents (Elt Ideal))

/-- First layer on the nodes the edges point to: the rectified dense step of the means aggregated over the incoming
    edges and the nodes' own projected features. -/
theorem stage62 (b : Cert.SageSpec.Mat 1 64) (hb : ∀ q : Fin 64, b (ix2 0 q) = x8 (ix1 q)) :
    val_main_v62 (F := Ideal) x0 x1 x2 x3 x4 x5 x6 x7 x8 x9
      = Cert.SageSpec.linRelu (val_main_v30 (F := Ideal) x0 x2 x3 x4) (val_main_v11 (F := Ideal) x1 x5 x6) x7 b x9 := by
  funext i
  obtain ⟨r, q, rfl⟩ : ∃ (r : Fin 100000) (q : Fin 64), i = ix2 r q := ⟨i 0, i 1, eq_ix2 i⟩
  rw [val_main_v62_apply, val_main_v36_apply, val_main_v34_apply, val_main_v31_apply, val_main_v33_apply,
    val_main_v32_apply, val_main_v35_apply, val_main_call0_v0_apply, val_main_call0_cst_apply]
  generalize val_main_v30 (F := Ideal) x0 x2 x3 x4 = mean
  generalize val_main_v11 (F := Ideal) x1 x5 x6 = xdst
  have hl : ∀ k : Fin 64, lidx_main_v31 (ix2 r q) k = ix2 r k := fun k => eq_ix2_of_val _ r k rfl rfl
  have hr : ∀ k : Fin 64, ridx_main_v31 (ix2 r q) k = ix2 k q := fun k => eq_ix2_of_val _ k q rfl rfl
  have hl' : ∀ k : Fin 64, lidx_main_v35 (ix2 r q) k = ix2 r k := fun k => eq_ix2_of_val _ r k rfl rfl
  have hr' : ∀ k : Fin 64, ridx_main_v35 (ix2 r q) k = ix2 k q := fun k => eq_ix2_of_val _ k q rfl rfl
  have hbias : idx_main_v32 (idx_main_v33 (ix2 r q)) = ix1 q := eq_ix1_of_val _ q rfl
  simp only [hl, hr, hl', hr', hbias]
  rw [linRelu_entry, hb]
  simp only [Ideal.maximumf_def, Ideal.addf_def, Ideal.ofBits_def, Ideal.ofBits_zero_f32]

/-- First layer on the nodes the edges leave (the edges reversed): the rectified dense step of the aggregated means and
    the nodes' own projected features. -/
theorem stage63 (b : Cert.SageSpec.Mat 1 64) (hb : ∀ q : Fin 64, b (ix2 0 q) = x11 (ix1 q)) :
    val_main_v63 (F := Ideal) x0 x1 x2 x3 x4 x5 x6 x10 x11 x12
      = Cert.SageSpec.linRelu (val_main_v55 (F := Ideal) x1 x2 x5 x6) (val_main_v7 (F := Ideal) x0 x3 x4) x10 b x12 := by
  funext i
  obtain ⟨r, q, rfl⟩ : ∃ (r : Fin 100000) (q : Fin 64), i = ix2 r q := ⟨i 0, i 1, eq_ix2 i⟩
  rw [val_main_v63_apply, val_main_v61_apply, val_main_v59_apply, val_main_v56_apply, val_main_v58_apply,
    val_main_v57_apply, val_main_v60_apply, val_main_call1_v0_apply, val_main_call1_cst_apply]
  generalize val_main_v55 (F := Ideal) x1 x2 x5 x6 = mean
  generalize val_main_v7 (F := Ideal) x0 x3 x4 = xdst
  have hl : ∀ k : Fin 64, lidx_main_v56 (ix2 r q) k = ix2 r k := fun k => eq_ix2_of_val _ r k rfl rfl
  have hr : ∀ k : Fin 64, ridx_main_v56 (ix2 r q) k = ix2 k q := fun k => eq_ix2_of_val _ k q rfl rfl
  have hl' : ∀ k : Fin 64, lidx_main_v60 (ix2 r q) k = ix2 r k := fun k => eq_ix2_of_val _ r k rfl rfl
  have hr' : ∀ k : Fin 64, ridx_main_v60 (ix2 r q) k = ix2 k q := fun k => eq_ix2_of_val _ k q rfl rfl
  have hbias : idx_main_v57 (idx_main_v58 (ix2 r q)) = ix1 q := eq_ix1_of_val _ q rfl
  simp only [hl, hr, hl', hr', hbias]
  rw [linRelu_entry, hb]
  simp only [Ideal.maximumf_def, Ideal.addf_def, Ideal.ofBits_def, Ideal.ofBits_zero_f32]

/-- Second layer on the nodes the edges point to: the dense step of the aggregated means of the other side's first-layer
    output and the nodes' own first-layer output; no rectifier follows. -/
theorem stage88 (b : Cert.SageSpec.Mat 1 64) (hb : ∀ q : Fin 64, b (ix2 0 q) = x14 (ix1 q)) :
    val_main_v88 (F := Ideal) x0 x1 x2 x3 x4 x5 x6 x7 x8 x9 x10 x11 x12 x13 x14 x15
      = Cert.SageSpec.lin (val_main_v82 (F := Ideal) x0 x1 x2 x3 x4 x5 x6 x10 x11 x12)
          (val_main_v62 (F := Ideal) x0 x1 x2 x3 x4 x5 x6 x7 x8 x9) x13 b x15 := by
  funext i
  obtain ⟨r, q, rfl⟩ : ∃ (r : Fin 100000) (q : Fin 64), i = ix2 r q := ⟨i 0, i 1, eq_ix2 i⟩
  rw [val_main_v88_apply, val_main_v86_apply, val_main_v83_apply, val_main_v85_apply, val_main_v84_apply,
    val_main_v87_apply]
  generalize val_main_v82 (F := Ideal) x0 x1 x2 x3 x4 x5 x6 x10 x11 x12 = mean
  generalize val_main_v62 (F := Ideal) x0 x1 x2 x3 x4 x5 x6 x7 x8 x9 = xdst
  have hl : ∀ k : Fin 64, lidx_main_v83 (ix2 r q) k = ix2 r k := fun k => eq_ix2_of_val _ r k rfl rfl
  have hr : ∀ k : Fin 64, ridx_main_v83 (ix2 r q) k = ix2 k q := fun k => eq_ix2_of_val _ k q rfl rfl
  have hl' : ∀ k : Fin 64, lidx_main_v87 (ix2 r q) k = ix2 r k := fun k => eq_ix2_of_val _ r k rfl rfl
  have hr' : ∀ k : Fin 64, ridx_main_v87 (ix2 r q) k = ix2 k q := fun k => eq_ix2_of_val _ k q rfl rfl
  have hbias : idx_main_v84 (idx_main_v85 (ix2 r q)) = ix1 q := eq_ix1_of_val _ q rfl
  simp only [hl, hr, hl', hr', hbias]
  rw [lin_entry, hb]
  simp only [Ideal.addf_def]

/-- Second layer on the nodes the edges leave: the dense step of the aggregated means of the other side's first-layer
    output and the nodes' own first-layer output; no rectifier follows. -/
theorem stage113 (b : Cert.SageSpec.Mat 1 64) (hb : ∀ q : Fin 64, b (ix2 0 q) = x17 (ix1 q)) :
    val_main_v113 (F := Ideal) x0 x1 x2 x3 x4 x5 x6 x7 x8 x9 x10 x11 x12 x16 x17 x18
      = Cert.SageSpec.lin (val_main_v107 (F := Ideal) x0 x1 x2 x3 x4 x5 x6 x7 x8 x9)
          (val_main_v63 (F := Ideal) x0 x1 x2 x3 x4 x5 x6 x10 x11 x12) x16 b x18 := by
  funext i
  obtain ⟨r, q, rfl⟩ : ∃ (r : Fin 100000) (q : Fin 64), i = ix2 r q := ⟨i 0, i 1, eq_ix2 i⟩
  rw [val_main_v113_apply, val_main_v111_apply, val_main_v108_apply, val_main_v110_apply, val_main_v109_apply,
    val_main_v112_apply]
  generalize val_main_v107 (F := Ideal) x0 x1 x2 x3 x4 x5 x6 x7 x8 x9 = mean
  generalize val_main_v63 (F := Ideal) x0 x1 x2 x3 x4 x5 x6 x10 x11 x12 = xdst
  have hl : ∀ k : Fin 64, lidx_main_v108 (ix2 r q) k = ix2 r k := fun k => eq_ix2_of_val _ r k rfl rfl
  have hr : ∀ k : Fin 64, ridx_main_v108 (ix2 r q) k = ix2 k q := fun k => eq_ix2_of_val _ k q rfl rfl
  have hl' : ∀ k : Fin 64, lidx_main_v112 (ix2 r q) k = ix2 r k := fun k => eq_ix2_of_val _ r k rfl rfl
  have hr' : ∀ k : Fin 64, ridx_main_v112 (ix2 r q) k = ix2 k q := fun k => eq_ix2_of_val _ k q rfl rfl
  have hbias : idx_main_v109 (idx_main_v110 (ix2 r q)) = ix1 q := eq_ix1_of_val _ q rfl
  simp only [hl, hr, hl', hr', hbias]
  rw [lin_entry, hb]
  simp only [Ideal.addf_def]

/-- The classifier's hidden layer at an entry (r, k): the rectified sum over the 128 joined features of row r, plus the
    bias at k. -/
theorem hidden_entry (r : Fin 1000000) (k : Fin 64) :
    val_main_v133 (F := Ideal) x0 x1 x2 x3 x4 x5 x6 x7 x8 x9 x10 x11 x12 x13 x14 x15 x16 x17 x18 x19 x20 (ix2 r k)
      = max ((∑ j : Fin 128, (val_main_v128 (F := Ideal) x0 x1 x2 x3 x4 x5 x6 x7 x8 x9 x10 x11 x12 x13 x14 x15 x16 x17 x18) (ix2 r j) * x19 (ix2 j k)) + x20 (ix1 k)) 0 := by
  rw [val_main_v133_apply, val_main_v132_apply, val_main_v129_apply, val_main_v131_apply, val_main_v130_apply,
    val_main_call2_v0_apply, val_main_call2_cst_apply]
  generalize val_main_v128 (F := Ideal) x0 x1 x2 x3 x4 x5 x6 x7 x8 x9 x10 x11 x12 x13 x14 x15 x16 x17 x18 = x
  have hl : ∀ j : Fin 128, lidx_main_v129 (ix2 r k) j = ix2 r j := fun j => eq_ix2_of_val _ r j rfl rfl
  have hr : ∀ j : Fin 128, ridx_main_v129 (ix2 r k) j = ix2 j k := fun j => eq_ix2_of_val _ j k rfl rfl
  have hbias : idx_main_v130 (idx_main_v131 (ix2 r k)) = ix1 k := eq_ix1_of_val _ k rfl
  simp only [hl, hr, hbias]
  simp only [Ideal.maximumf_def, Ideal.addf_def, Ideal.ofBits_def, Ideal.ofBits_zero_f32]

/-- The edge classifier: on each row of the joined endpoint features, a rectified hidden layer of 64 units and one
    logistic output; the quotient 1 / (1 + exp (-z)) the reference writes is the logistic function of z. -/
theorem stage143 (b1 : Cert.SageSpec.Mat 1 64) (hb1 : ∀ q : Fin 64, b1 (ix2 0 q) = x20 (ix1 q))
    (b2 : Cert.SageSpec.Mat 1 1) (hb2 : b2 (ix2 0 0) = x22 (ix1 0)) :
    val_main_v143 (F := Ideal) x0 x1 x2 x3 x4 x5 x6 x7 x8 x9 x10 x11 x12 x13 x14 x15 x16 x17 x18 x19 x20 x21 x22
      = Cert.SageSpec.mlp (val_main_v128 (F := Ideal) x0 x1 x2 x3 x4 x5 x6 x7 x8 x9 x10 x11 x12 x13 x14 x15 x16 x17 x18)
          x19 b1 x21 b2 := by
  funext i
  obtain ⟨r, z, rfl⟩ : ∃ (r : Fin 1000000) (z : Fin 1), i = ix2 r z := ⟨i 0, i 1, eq_ix2 i⟩
  obtain rfl : z = 0 := Subsingleton.elim _ _
  rw [val_main_v143_apply, val_main_v142_apply, val_main_cst_27_apply, val_main_v141_apply, val_main_v140_apply,
    val_main_cst_26_apply, val_main_v139_apply, val_main_v138_apply, val_main_v137_apply, val_main_v134_apply,
    val_main_v136_apply, val_main_v135_apply]
  have hsum : (∑ k : Fin 64, val_main_v133 (F := Ideal) x0 x1 x2 x3 x4 x5 x6 x7 x8 x9 x10 x11 x12 x13 x14 x15 x16 x17 x18 x19 x20 (lidx_main_v134 (ix2 r 0) k) * x21 (ridx_main_v134 (ix2 r 0) k))
      = ∑ k : Fin 64, max ((∑ j : Fin 128, (val_main_v128 (F := Ideal) x0 x1 x2 x3 x4 x5 x6 x7 x8 x9 x10 x11 x12 x13 x14 x15 x16 x17 x18) (ix2 r j) * x19 (ix2 j k)) + x20 (ix1 k)) 0 * x21 (ix2 k 0) :=
    Finset.sum_congr rfl fun k _ => by
      rw [eq_ix2_of_val (lidx_main_v134 (ix2 r 0) k) r k rfl rfl, eq_ix2_of_val (ridx_main_v134 (ix2 r 0) k) k 0 rfl rfl,
        hidden_entry]
  rw [hsum]
  generalize val_main_v128 (F := Ideal) x0 x1 x2 x3 x4 x5 x6 x7 x8 x9 x10 x11 x12 x13 x14 x15 x16 x17 x18 = x
  have hbias : idx_main_v135 (idx_main_v136 (ix2 r 0)) = ix1 0 := eq_ix1_of_val _ 0 rfl
  rw [hbias, mlp_entry]
  simp only [hb1, hb2]
  simp only [Ideal.hostDivf_def, Ideal.hostUnary_exp_def, Ideal.hostNegf_def, Ideal.negf_def, Ideal.addf_def,
    Ideal.ofBits_def, ofBits_one_f32]

end Cert.ReferenceIdeal.Stages

end
-- ==== Proof.Region0.lean ====
/-
  One dense step of the graph convolution, followed by the rectifier, as a function of whole matrices.

  The program computes the [100000, 64] result in 20 blocks of 5000 rows. In each block it multiplies the block's rows
  of the aggregated neighbour means by one 64 × 64 matrix, adds the bias row, adds the block's rows of the node features
  times a second 64 × 64 matrix, and takes the maximum with zero. Entry (p, q) of block t depends only on row
  5000 t + p of the two row-indexed matrices, so it equals entry (5000 t + p, q) of the same expression on the whole
  matrices; the 20 blocks tile the rows, so the array the region leaves is that expression everywhere.
-/
import proofs.«122769_j16733192585664_1_alg».proof.Proof.Gen.KernelIdeal.Frame
import proofs.«122769_j16733192585664_1_alg».proof.Proof.Spec
import proofs.«122769_j16733192585664_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-! ## The block product reads its operands at (row, k) and (k, column) -/

theorem dot_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero accumulator, at an entry: the sum over the contracted coordinate. -/
theorem prod_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) :=
  PlainDot.matmul_zero_apply dot_S5000x64_S64x64_S5000x64_1_0_0_1_n_n rfl rfl dot_l0 dot_l1 dot_r0 dot_r1 none x w (ix2 p q)

/-- The one-row bias repeated down the rows, at an entry: the row's entry in that column. -/
theorem bias_apply (b : Vec Ideal S1x64 .f32) (p : Fin 5000) (q : Fin 64) :
    broadcastTo S5000x64 b broadcasts_S1x64_S5000x64 (ix2 p q) = b (ix2 0 q) := by
  exact broadcastTo_apply b broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The body's arithmetic at an entry -/

/-- The body's arithmetic at entry (p, q) of a block: the dense step's entry (p, q), rectified of the block's operands (the changes of
    format to sixteen bits are the identity on the extended reals, and the zero word is zero). -/
theorem pay_apply (v0 v3 : Vec Ideal S5000x64 .f32) (v6 v8 : Vec Ideal S64x64 .f32) (v11 : Vec Ideal S1x64 .f32) (p : Fin 5000) (q : Fin 64) :
    k0_pay1 v0 v3 v6 v8 v11 (ix2 p q) = max (Cert.SageSpec.linAt v0 v3 v6 v11 v8 p q) 0 := by
  unfold k0_pay1 Cert.SageSpec.linAt
  rw [shapeCast_self, shapeCast_self, shapeCast_self]
  rw [maximumf_apply, addf_apply, addf_apply, broadcast_apply, prod_apply, prod_apply, bias_apply]
  show max _ (Ideal.ofBits .f32 0x00000000#32) = _
  rw [Ideal.ofBits_zero_f32]
  rfl

/-- The body's arithmetic at an entry of a block whose two row-indexed operands hold, in row p, row r of the whole
    matrices: the dense step's entry (r, q), rectified of the whole matrices. -/
theorem pay_apply_row (A0 A1 : Cert.SageSpec.Mat 100000 64) (W : Cert.SageSpec.Mat 64 64) (b : Cert.SageSpec.Mat 1 64)
    (W' : Cert.SageSpec.Mat 64 64) (x0 x1 : Vec Ideal S5000x64 .f32) (p : Fin 5000) (q : Fin 64) (r : Fin 100000)
    (h0 : ∀ k : Fin 64, x0 (ix2 p k) = A0 (ix2 r k)) (h1 : ∀ k : Fin 64, x1 (ix2 p k) = A1 (ix2 r k)) :
    k0_pay1 x0 x1 W W' b (ix2 p q) = Cert.SageSpec.linRelu A0 A1 W b W' (ix2 r q) := by
  rw [pay_apply]
  show max (Cert.SageSpec.linAt x0 x1 W b W' p q) 0 = max (Cert.SageSpec.linAt A0 A1 W b W' r q) 0
  unfold Cert.SageSpec.linAt
  simp only [h0, h1]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the six windows at every point of the grid: the two row-indexed inputs and the output are at
    block (t, 0); the two weight matrices and the bias row are whole, at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has 20 points. -/
theorem point_lt (t : Fin cfg0.N) : t.val < 20 := Nat.lt_of_lt_of_eq t.isLt N_0

/-- The first weight matrix's window is the whole matrix at every point. -/
theorem iblk_wl (c : Dev nD) (t : Fin cfg0.N) :
    (iblk0 V c 2 t : Vec Ideal S64x64 .f32) = (V c main_arg7 : S64x64.Idx → EReal) := by
  obtain ⟨-, -, -, -, e0, e1, -⟩ := block_indices t
  funext y
  show V c main_arg7 (((cfg0.win 2).blk t).view.emb y) = V c main_arg7 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias row's window is the whole row at every point. -/
theorem iblk_b (c : Dev nD) (t : Fin cfg0.N) :
    (iblk0 V c 3 t : Vec Ideal S1x64 .f32) = (V c main_v50 : S1x64.Idx → EReal) := by
  obtain ⟨-, -, -, -, -, -, e0, e1, -⟩ := block_indices t
  funext y
  show V c main_v50 (((cfg0.win 3).blk t).view.emb y) = V c main_v50 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight matrix's window is the whole matrix at every point. -/
theorem iblk_wr (c : Dev nD) (t : Fin cfg0.N) :
    (iblk0 V c 4 t : Vec Ideal S64x64 .f32) = (V c main_arg9 : S64x64.Idx → EReal) := by
  obtain ⟨-, -, -, -, -, -, -, -, e0, e1, -⟩ := block_indices t
  funext y
  show V c main_arg9 (((cfg0.win 4).blk t).view.emb y) = V c main_arg9 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Row p of the first row-indexed window's block at point t is row 5000 t + p of its matrix. -/
theorem iblk_mean (c : Dev nD) (t : Fin cfg0.N) (p : Fin 5000) (k : Fin 64) (r : Fin 100000) (hr : r.val = t.val * 5000 + p.val) :
    (iblk0 V c 0 t : Vec Ideal S5000x64 .f32) (ix2 p k) = (V c main_v30 : S100000x64.Idx → EReal) (ix2 r k) := by
  obtain ⟨e0, e1, -⟩ := block_indices t
  show V c main_v30 (((cfg0.win 0).blk t).view.emb (ix2 p k)) = V c main_v30 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Row p of the second row-indexed window's block at point t is row 5000 t + p of its matrix. -/
theorem iblk_x (c : Dev nD) (t : Fin cfg0.N) (p : Fin 5000) (k : Fin 64) (r : Fin 100000) (hr : r.val = t.val * 5000 + p.val) :
    (iblk0 V c 1 t : Vec Ideal S5000x64 .f32) (ix2 p k) = (V c main_v11 : S100000x64.Idx → EReal) (ix2 r k) := by
  obtain ⟨-, -, e0, e1, -⟩ := block_indices t
  show V c main_v11 (((cfg0.win 1).blk t).view.emb (ix2 p k)) = V c main_v11 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- Entry (p, q) of the output window's block at point t is entry (5000 t + p, q) of the array. -/
theorem out_emb (t : Fin cfg0.N) (p : Fin 5000) (q : Fin 64) (r : Fin 100000) (hr : r.val = t.val * 5000 + p.val) :
    ((cfg0.win 5).blk t).view.emb (ix2 p q) = (ix2 r q : S100000x64.Idx) := by
  obtain ⟨-, -, -, -, -, -, -, -, -, -, e0, e1⟩ := block_indices t
  refine funext fun a => Fin.ext ?_
  match a with
  | ⟨0, _⟩ => show win0_5.index t (0 : Fin 2) * 5000 + 1 * p.val = r.val; omega
  | ⟨1, _⟩ => show win0_5.index t (1 : Fin 2) * 64 + 1 * q.val = q.val; omega

/-- What point t writes back is block t of the dense step, rectified, of the arrays as the region finds them. -/
theorem flushed_eq (c : Dev nD) (t : Fin cfg0.N) :
    (dat0 (F := Ideal) V c).flushed 5 t = ((cfg0.win 5).blk t).view.read (Elt Ideal)
      (Cert.SageSpec.linRelu (V c main_v30) (V c main_v11) (V c main_arg7) (V c main_v50) (V c main_arg9)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets, View.ld_unit_zero (S := S1x64) zero_offsets]
  rw [iblk_wl, iblk_b, iblk_wr]
  funext j
  obtain ⟨p, q, rfl⟩ : ∃ (p : Fin 5000) (q : Fin 64), j = ix2 p q := ⟨j 0, j 1, eq_ix2 j⟩
  have ht := point_lt t
  obtain ⟨r, hr⟩ : ∃ r : Fin 100000, r.val = t.val * 5000 + p.val := ⟨⟨t.val * 5000 + p.val, by have := p.isLt; omega⟩, rfl⟩
  show k0_pay1 (iblk0 V c 0 t) (iblk0 V c 1 t) (V c main_arg7) (V c main_arg9) (V c main_v50) (ix2 p q)
    = Cert.SageSpec.linRelu (V c main_v30) (V c main_v11) (V c main_arg7) (V c main_v50) (V c main_arg9) (((cfg0.win 5).blk t).view.emb (ix2 p q))
  rw [out_emb t p q r hr]
  exact pay_apply_row _ _ _ _ _ _ _ p q r (fun k => iblk_mean V c t p k r hr) (fun k => iblk_x V c t p k r hr)

/-- An index of the array is in point t's block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v51).slice (win0_5.rect t)).set ↔ _
  rw [View.set_slice_whole, Rect.mem_set_unit]
  exact Iff.rfl

/-- Every index of the array is in the block of the point its row over 5000 names. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, -, -, -, -, -, -, e0, e1⟩ := block_indices t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The array after the region: the dense step, rectified, of the arrays as the region finds them. -/
theorem final0 (V : (c : Dev nD) → (b : Ref sig .tc) → Buf (Elt Ideal) ((c : Thread nD τ).loc b)) (c : Dev nD) :
    (dat0 (F := Ideal) V c).arrAt 5 cfg0.N
      = Cert.SageSpec.linRelu (V c main_v30) (V c main_v11) (V c main_arg7) (V c main_v50) (V c main_arg9) :=
  (dat0 (F := Ideal) V c).arrAt_eq_of_cover 5 _ (fun t _ => flushed_eq V c t) cover

end Cert.KernelIdeal.Region0

end
-- ==== Proof.Region1.lean ====
/-
  One dense step of the graph convolution, followed by the rectifier, as a function of whole matrices.

  The program computes the [100000, 64] result in 20 blocks of 5000 rows. In each block it multiplies the block's rows
  of the aggregated neighbour means by one 64 × 64 matrix, adds the bias row, adds the block's rows of the node features
  times a second 64 × 64 matrix, and takes the maximum with zero. Entry (p, q) of block t depends only on row
  5000 t + p of the two row-indexed matrices, so it equals entry (5000 t + p, q) of the same expression on the whole
  matrices; the 20 blocks tile the rows, so the array the region leaves is that expression everywhere.
-/
import proofs.«122769_j16733192585664_1_alg».proof.Proof.Gen.KernelIdeal.Frame
import proofs.«122769_j16733192585664_1_alg».proof.Proof.Spec
import proofs.«122769_j16733192585664_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat)

/-! ## The block product reads its operands at (row, k) and (k, column) -/

theorem dot_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero accumulator, at an entry: the sum over the contracted coordinate. -/
theorem prod_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) :=
  PlainDot.matmul_zero_apply dot_S5000x64_S64x64_S5000x64_1_0_0_1_n_n rfl rfl dot_l0 dot_l1 dot_r0 dot_r1 none x w (ix2 p q)

/-- The one-row bias repeated down the rows, at an entry: the row's entry in that column. -/
theorem bias_apply (b : Vec Ideal S1x64 .f32) (p : Fin 5000) (q : Fin 64) :
    broadcastTo S5000x64 b broadcasts_S1x64_S5000x64 (ix2 p q) = b (ix2 0 q) := by
  exact broadcastTo_apply b broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The body's arithmetic at an entry -/

/-- The body's arithmetic at entry (p, q) of a block: the dense step's entry (p, q), rectified of the block's operands (the changes of
    format to sixteen bits are the identity on the extended reals, and the zero word is zero). -/
theorem pay_apply (v0 v3 : Vec Ideal S5000x64 .f32) (v6 v8 : Vec Ideal S64x64 .f32) (v11 : Vec Ideal S1x64 .f32) (p : Fin 5000) (q : Fin 64) :
    k1_pay1 v0 v3 v6 v8 v11 (ix2 p q) = max (Cert.SageSpec.linAt v0 v3 v6 v11 v8 p q) 0 := by
  unfold k1_pay1 Cert.SageSpec.linAt
  rw [shapeCast_self, shapeCast_self, shapeCast_self]
  rw [maximumf_apply, addf_apply, addf_apply, broadcast_apply, prod_apply, prod_apply, bias_apply]
  show max _ (Ideal.ofBits .f32 0x00000000#32) = _
  rw [Ideal.ofBits_zero_f32]
  rfl

/-- The body's arithmetic at an entry of a block whose two row-indexed operands hold, in row p, row r of the whole
    matrices: the dense step's entry (r, q), rectified of the whole matrices. -/
theorem pay_apply_row (A0 A1 : Cert.SageSpec.Mat 100000 64) (W : Cert.SageSpec.Mat 64 64) (b : Cert.SageSpec.Mat 1 64)
    (W' : Cert.SageSpec.Mat 64 64) (x0 x1 : Vec Ideal S5000x64 .f32) (p : Fin 5000) (q : Fin 64) (r : Fin 100000)
    (h0 : ∀ k : Fin 64, x0 (ix2 p k) = A0 (ix2 r k)) (h1 : ∀ k : Fin 64, x1 (ix2 p k) = A1 (ix2 r k)) :
    k1_pay1 x0 x1 W W' b (ix2 p q) = Cert.SageSpec.linRelu A0 A1 W b W' (ix2 r q) := by
  rw [pay_apply]
  show max (Cert.SageSpec.linAt x0 x1 W b W' p q) 0 = max (Cert.SageSpec.linAt A0 A1 W b W' r q) 0
  unfold Cert.SageSpec.linAt
  simp only [h0, h1]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the six windows at every point of the grid: the two row-indexed inputs and the output are at
    block (t, 0); the two weight matrices and the bias row are whole, at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 20 points. -/
theorem point_lt (t : Fin cfg1.N) : t.val < 20 := Nat.lt_of_lt_of_eq t.isLt N_1

/-- The first weight matrix's window is the whole matrix at every point. -/
theorem iblk_wl (c : Dev nD) (t : Fin cfg1.N) :
    (iblk1 V c 2 t : Vec Ideal S64x64 .f32) = (V c main_arg10 : S64x64.Idx → EReal) := by
  obtain ⟨-, -, -, -, e0, e1, -⟩ := block_indices t
  funext y
  show V c main_arg10 (((cfg1.win 2).blk t).view.emb y) = V c main_arg10 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias row's window is the whole row at every point. -/
theorem iblk_b (c : Dev nD) (t : Fin cfg1.N) :
    (iblk1 V c 3 t : Vec Ideal S1x64 .f32) = (V c main_v52 : S1x64.Idx → EReal) := by
  obtain ⟨-, -, -, -, -, -, e0, e1, -⟩ := block_indices t
  funext y
  show V c main_v52 (((cfg1.win 3).blk t).view.emb y) = V c main_v52 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The second weight matrix's window is the whole matrix at every point. -/
theorem iblk_wr (c : Dev nD) (t : Fin cfg1.N) :
    (iblk1 V c 4 t : Vec Ideal S64x64 .f32) = (V c main_arg12 : S64x64.Idx → EReal) := by
  obtain ⟨-, -, -, -, -, -, -, -, e0, e1, -⟩ := block_indices t
  funext y
  show V c main_arg12 (((cfg1.win 4).blk t).view.emb y) = V c main_arg12 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Row p of the first row-indexed window's block at point t is row 5000 t + p of its matrix. -/
theorem iblk_mean (c : Dev nD) (t : Fin cfg1.N) (p : Fin 5000) (k : Fin 64) (r : Fin 100000) (hr : r.val = t.val * 5000 + p.val) :
    (iblk1 V c 0 t : Vec Ideal S5000x64 .f32) (ix2 p k) = (V c main_v49 : S100000x64.Idx → EReal) (ix2 r k) := by
  obtain ⟨e0, e1, -⟩ := block_indices t
  show V c main_v49 (((cfg1.win 0).blk t).view.emb (ix2 p k)) = V c main_v49 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Row p of the second row-indexed window's block at point t is row 5000 t + p of its matrix. -/
theorem iblk_x (c : Dev nD) (t : Fin cfg1.N) (p : Fin 5000) (k : Fin 64) (r : Fin 100000) (hr : r.val = t.val * 5000 + p.val) :
    (iblk1 V c 1 t : Vec Ideal S5000x64 .f32) (ix2 p k) = (V c main_v7 : S100000x64.Idx → EReal) (ix2 r k) := by
  obtain ⟨-, -, e0, e1, -⟩ := block_indices t
  show V c main_v7 (((cfg1.win 1).blk t).view.emb (ix2 p k)) = V c main_v7 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

/-- Entry (p, q) of the output window's block at point t is entry (5000 t + p, q) of the array. -/
theorem out_emb (t : Fin cfg1.N) (p : Fin 5000) (q : Fin 64) (r : Fin 100000) (hr : r.val = t.val * 5000 + p.val) :
    ((cfg1.win 5).blk t).view.emb (ix2 p q) = (ix2 r q : S100000x64.Idx) := by
  obtain ⟨-, -, -, -, -, -, -, -, -, -, e0, e1⟩ := block_indices t
  refine funext fun a => Fin.ext ?_
  match a with
  | ⟨0, _⟩ => show win1_5.index t (0 : Fin 2) * 5000 + 1 * p.val = r.val; omega
  | ⟨1, _⟩ => show win1_5.index t (1 : Fin 2) * 64 + 1 * q.val = q.val; omega

/-- What point t writes back is block t of the dense step, rectified, of the arrays as the region finds them. -/
theorem flushed_eq (c : Dev nD) (t : Fin cfg1.N) :
    (dat1 (F := Ideal) V c).flushed 5 t = ((cfg1.win 5).blk t).view.read (Elt Ideal)
      (Cert.SageSpec.linRelu (V c main_v49) (V c main_v7) (V c main_arg10) (V c main_v52) (V c main_arg12)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S64x64) zero_offsets, View.ld_unit_zero (S := S1x64) zero_offsets]
  rw [iblk_wl, iblk_b, iblk_wr]
  funext j
  obtain ⟨p, q, rfl⟩ : ∃ (p : Fin 5000) (q : Fin 64), j = ix2 p q := ⟨j 0, j 1, eq_ix2 j⟩
  have ht := point_lt t
  obtain ⟨r, hr⟩ : ∃ r : Fin 100000, r.val = t.val * 5000 + p.val := ⟨⟨t.val * 5000 + p.val, by have := p.isLt; omega⟩, rfl⟩
  show k1_pay1 (iblk1 V c 0 t) (iblk1 V c 1 t) (V c main_arg10) (V c main_arg12) (V c main_v52) (ix2 p q)
    = Cert.SageSpec.linRelu (V c main_v49) (V c main_v7) (V c main_arg10) (V c main_v52) (V c main_arg12) (((cfg1.win 5).blk t).view.emb (ix2 p q))
  rw [out_emb t p q r hr]
  exact pay_apply_row _ _ _ _ _ _ _ p q r (fun k => iblk_mean V c t p k r hr) (fun k => iblk_x V c t p k r hr)

/-- An index of the array is in point t's block iff each coordinate is in the block's range on its axis. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v53).slice (win1_5.rect t)).set ↔ _
  rw [View.set_slice_whole, Rect.mem_set_unit]
  exact Iff.rfl

/-- Every index of the array is in the block of the point its row over 5000 names. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega : (i 0).val / 5000 < 20) N_1.symm⟩, rfl⟩
  obtain ⟨-, -, -, -, -, -, -, -, -, -, e0, e1⟩ := block_indices t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The array after the region: the dense step, rectified, of the arrays as the region finds them. -/
theorem final1 (V : (c : Dev nD) → (b : Ref sig .tc) → Buf (Elt Ideal) ((c : Thread nD τ).loc b)) (c : Dev nD) :
    (dat1 (F := Ideal) V c).arrAt 5 cfg1.N
      = Cert.SageSpec.linRelu (V c main_v49) (V c main_v7) (V c main_arg10) (V c main_v52) (V c main_arg12) :=
  (dat1 (F := Ideal) V c).arrAt_eq_of_cover 5 _ (fun t _ => flushed_eq V c t) cover

end Cert.KernelIdeal.Region1

end
-- ==== Proof.Region2.lean ====
/-
  One dense step of the graph convolution as a function of whole matrices.

  The program computes the [100000, 64] result in 20 blocks of 5000 rows. In each block it multiplies the block's rows
  of the aggregated neighbour means by one 64 × 64 matrix, adds the bias row, and adds the block's rows of the node
  features times a second 64 × 64 matrix. Entry (p, q) of block t depends only on row 5000 t + p of the two row-indexed
  matrices, so it equals entry (5000 t + p, q) of the same expression on the whole matrices; the 20 blocks tile the
  rows, so the array the region leaves is that expression everywhere.
-/
import proofs.«122769_j16733192585664_1_alg».proof.Proof.Gen.KernelIdeal.Frame
import proofs.«122769_j16733192585664_1_alg».proof.Proof.Spec
import proofs.«122769_j16733192585664_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Cert.KernelIdeal Cert.KernelIdeal.Gen
open Idealize.ShloMosaic.ValueIdx
open Idealize.ShloMosaic.Pipeline (Dat)

/-! ## The block product reads its operands at (row, k) and (k, column) -/

theorem dot_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero accumulator, at an entry: the sum over the contracted coordinate. -/
theorem prod_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) :=
  PlainDot.matmul_zero_apply dot_S5000x64_S64x64_S5000x64_1_0_0_1_n_n rfl rfl dot_l0 dot_l1 dot_r0 dot_r1 none x w (ix2 p q)

/-- The one-row bias repeated down the rows, at an entry: the row's entry in that column. -/
theorem bias_apply (b : Vec Ideal S1x64 .f32) (p : Fin 5000) (q : Fin 64) :
    broadcastTo S5000x64 b broadcasts_S1x64_S5000x64 (ix2 p q) = b (ix2 0 q) := by
  exact broadcastTo_apply b broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The body's arithmetic at an entry -/

/-- The body's arithmetic at entry (p, q) of a block: the dense step's entry (p, q) of the block's operands (the changes of
    format to sixteen bits are the identity on the extended reals, and the zero word is zero). -/
theorem pay_apply (v0 v3 : Vec Ideal S5000x64 .f32) (v6 v8 : Vec Ideal S64x64 .f32) (v11 : Vec Ideal S1x64 .f32) (p : Fin 5000) (q : Fin 64) :
    k2_pay1 v0 v3 v6 v8 v11 (ix2 p q) = Cert.SageSpec.linAt v0 v3 v6 v11 v8 p q := by
  unfold k2_pay1 Cert.SageSpec.linAt
  rw [shapeCast_self, shapeCast_self, shapeCast_self]
  rw [addf_apply, addf_apply, prod_apply, prod_apply, bias_apply]
  rfl

/-- The body's arithmetic at an entry of a block whose two row-indexed operands hold, in row p, row r of the whole
    matrices: the dense step's entry (r, q) of the whole matrices. -/
theorem pay_apply_row (A0 A1 : Cert.SageSpec.Mat 100000 64) (W : Cert.SageSpec.Mat 64 64) (b : Cert.SageSpec.Mat 1 64)
    (W' : Cert.SageSpec.Mat 64 64) (x0 x1 : Vec Ideal S5000x64 .f32) (p : Fin 5000) (q : Fin 64) (r : Fin 100000)
    (h0 : ∀ k : Fin 64, x0 (ix2 p k) = A0 (ix2 r k)) (h1 : ∀ k : Fin 64, x1 (ix2 p k) = A1 (ix2 r k)) :
    k2_pay1 x0 x1 W W' b (ix2 p q) = Cert.SageSpec.lin A0 A1 W b W' (ix2 r q) := by
  rw [pay_apply]
  show Cert.SageSpec.linAt x0 x1 W b W' p q = Cert.SageSpec.linAt A0 A1 W b W' r q
  unfold Cert.SageSpec.linAt
  simp only [h0, h1]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the six windows at every point of the grid: the two row-indexed inputs and the output are at
    block (t, 0); the two weight matrices and the bias row are whole, at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has 20 points. -/
theorem point_lt (t : Fin cfg2.N) : t.val < 20 := Nat.lt_of_lt_of_eq t.isLt N_2

/-- The first weight matrix's window is the whole matrix at every point. -/
theorem iblk_wl (c : Dev nD) (t : Fin cfg2.N) :
    (iblk2 V c 2 t : Vec Ideal S64x64 .f32) = (V c main_arg13 : S64x64.Idx → EReal) := by
  obtain ⟨-, -, -, -, e0, e1, -⟩ := block_indices t
  funext y
  show V c main_arg13 (((cfg2.win 2).blk t).view.emb y) = V c main_arg13 y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The bias row's window is the whole row at every point. -/
theorem iblk_b (c : Dev nD) (t : Fin cfg2.N) :
    (iblk2 V c 3 t : Vec Ideal S1x64 .f32) = (V c main_v92 : S1x64.Idx → EReal) := by
  obtain ⟨-, -, -, -, -, -, e0, e1, -⟩ := block_indices t
  funext y
  show V c main_v92 (((cfg2.win 3).blk t).view.emb y) = V c main_v92 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The second weight matrix's window is the whole matrix at every point. -/
theorem iblk_wr (c : Dev nD) (t : Fin cfg2.N) :
    (iblk2 V c 4 t : Vec Ideal S64x64 .f32) = (V c main_arg15 : S64x64.Idx → EReal) := by
  obtain ⟨-, -, -, -, -, -, -, -, e0, e1, -⟩ := block_indices t
  funext y
  show V c main_arg15 (((cfg2.win 4).blk t).view.emb y) = V c main_arg15 y
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Row p of the first row-indexed window's block at point t is row 5000 t + p of its matrix. -/
theorem iblk_mean (c : Dev nD) (t : Fin cfg2.N) (p : Fin 5000) (k : Fin 64) (r : Fin 100000) (hr : r.val = t.val * 5000 + p.val) :
    (iblk2 V c 0 t : Vec Ideal S5000x64 .f32) (ix2 p k) = (V c main_v72 : S100000x64.Idx → EReal) (ix2 r k) := by
  obtain ⟨e0, e1, -⟩ := block_indices t
  show V c main_v72 (((cfg2.win 0).blk t).view.emb (ix2 p k)) = V c main_v72 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- Row p of the second row-indexed window's block at point t is row 5000 t + p of its matrix. -/
theorem iblk_x (c : Dev nD) (t : Fin cfg2.N) (p : Fin 5000) (k : Fin 64) (r : Fin 100000) (hr : r.val = t.val * 5000 + p.val) :
    (iblk2 V c 1 t : Vec Ideal S5000x64 .f32) (ix2 p k) = (V c main_v51 : S100000x64.Idx → EReal) (ix2 r k) := by
  obtain ⟨-, -, e0, e1, -⟩ := block_indices t
  show V c main_v51 (((cfg2.win 1).blk t).view.emb (ix2 p k)) = V c main_v51 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- Entry (p, q) of the output window's block at point t is entry (5000 t + p, q) of the array. -/
theorem out_emb (t : Fin cfg2.N) (p : Fin 5000) (q : Fin 64) (r : Fin 100000) (hr : r.val = t.val * 5000 + p.val) :
    ((cfg2.win 5).blk t).view.emb (ix2 p q) = (ix2 r q : S100000x64.Idx) := by
  obtain ⟨-, -, -, -, -, -, -, -, -, -, e0, e1⟩ := block_indices t
  refine funext fun a => Fin.ext ?_
  match a with
  | ⟨0, _⟩ => show win2_5.index t (0 : Fin 2) * 5000 + 1 * p.val = r.val; omega
  | ⟨1, _⟩ => show win2_5.index t (1 : Fin 2) * 64 + 1 * q.val = q.val; omega

/-- What point t writes back is block t of the dense step of the arrays as the region finds them. -/
theorem flushed_eq (c : Dev nD) (t : Fin cfg2.N) :
    (dat2 (F := Ideal) V c).flushed 5 t = ((cfg2.win 5).blk t).view.read (Elt Ideal)
      (Cert.SageSpec.lin (V c main_v72) (V c main_v51) (V c main_arg13) (V c main_v92) (V c main_arg15)) := by
  show (cfg2.win 5).cut (grid2.coords t) ((dat2 V c).after 5 t) = _
  rw [after2_5]
  unfold out2_5
  rw [View.canon_unit_zero zero_offsets]
  simp only [View.ld_unit_zero (S := S5000x64) zero_offsets, View.ld_unit_zero (S := S64x64) zero_offsets, View.ld_unit_zero (S := S1x64) zero_offsets]
  rw [iblk_wl, iblk_b, iblk_wr]
  funext j
  obtain ⟨p, q, rfl⟩ : ∃ (p : Fin 5000) (q : Fin 64), j = ix2 p q := ⟨j 0, j 1, eq_ix2 j⟩
  have ht := point_lt t
  obtain ⟨r, hr⟩ : ∃ r : Fin 100000, r.val = t.val * 5000 + p.val := ⟨⟨t.val * 5000 + p.val, by have := p.isLt; omega⟩, rfl⟩
  show k2_pay1 (iblk2 V c 0 t) (iblk2 V c 1 t) (V c main_arg13) (V c main_arg15) (V c main_v92) (ix2 p q)
    = Cert.SageSpec.lin (V c main_v72) (V c main_v51) (V c main_arg13) (V c main_v92) (V c main_arg15) (((cfg2.win 5).blk t).view.emb (ix2 p q))
  rw [out_emb t p q r hr]
  exact pay_apply_row _ _ _ _ _ _ _ p q r (fun k => iblk_mean V c t p k r hr) (fun k => iblk_x V c t p k r hr)

/-- An index of the array is in point t's block iff each coordinate is in the block's range on its axis. -/
theorem mem_block (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v93).slice (win2_5.rect t)).set ↔ _
  rw [View.set_slice_whole, Rect.mem_set_unit]
  exact Iff.rfl

/-- Every index of the array is in the block of the point its row over 5000 names. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨-, -, -, -, -, -, -, -, -, -, e0, e1⟩ := block_indices t
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The array after the region: the dense step of the arrays as the region finds them. -/
theorem final2 (V : (c : Dev nD) → (b : Ref sig .tc) → Buf (Elt Ideal) ((c : Thread nD τ).loc b)) (c : Dev nD) :
    (dat2 (F := Ideal) V c).arrAt 5 cfg2.N
      = Cert.SageSpec.lin (V c main_v72) (V c main_v51) (V c main_arg13) (V c main_v92) (V c main_arg15) :=
  (dat2 (F := Ideal) V c).arrAt_eq_of_cover 5 _ (fun t _ => flushed_eq V c t) cover

end Cert.KernelIdeal.Region2

end
-- ==== Proof.Region3.lean ====
/-
  One dense step of the graph convolution as a function of whole matrices.

  The program computes the [100000, 64] result in 20 blocks of 5000 rows. In each block it multiplies the block's rows
  of the aggregated neighbour means by one 64 × 64 matrix, adds the bias row, and adds the block's rows of the node
  features times a second 64 × 64 matrix. Entry (p, q) of block t depends only on row 5000 t + p of the two row-indexed
  matrices, so it equals entry (5000 t + p, q) of the same expression on the whole matrices; the 20 blocks tile the
  rows, so the array the region leaves is that expression everywhere.
-/
import proofs.«122769_j16733192585664_1_alg».proof.Proof.Gen.KernelIdeal.Frame
import proofs.«122769_j16733192585664_1_alg».proof.Proof.Spec
import proofs.«122769_j16733192585664_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Idealize.ShloMosaic Idealize.ShloMosaic.TcCoe Idealize.SL.Sem Cert.KernelIdeal Cert.KernelIdeal.Gen
open Idealize.ShloMosaic.ValueIdx
open Idealize.ShloMosaic.Pipeline (Dat)

/-! ## The block product reads its operands at (row, k) and (k, column) -/

theorem dot_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero accumulator, at an entry: the sum over the contracted coordinate. -/
theorem prod_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) :=
  PlainDot.matmul_zero_apply dot_S5000x64_S64x64_S5000x64_1_0_0_1_n_n rfl rfl dot_l0 dot_l1 dot_r0 dot_r1 none x w (ix2 p q)

/-- The one-row bias repeated down the rows, at an entry: the row's entry in that column. -/
theorem bias_apply (b : Vec Ideal S1x64 .f32) (p : Fin 5000) (q : Fin 64) :
    broadcastTo S5000x64 b broadcasts_S1x64_S5000x64 (ix2 p q) = b (ix2 0 q) := by
  exact broadcastTo_apply b broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The body's arithmetic at an entry -/

/-- The body's arithmetic at entry (p, q) of a block: the dense step's entry (p, q) of the block's operands (the changes of
    format to sixteen bits are the identity on the extended reals, and the zero word is zero). -/
theorem pay_apply (v0 v3 : Vec Ideal S5000x64 .f32) (v6 v8 : Vec Ideal S64x64 .f32) (v11 : Vec Ideal S1x64 .f32) (p : Fin 5000) (q : Fin 64) :
    k3_pay1 v0 v3 v6 v8 v11 (ix2 p q) = Cert.SageSpec.linAt v0 v3 v6 v11 v8 p q := by
  unfold k3_pay1 Cert.SageSpec.linAt
  rw [shapeCast_self, shapeCast_self, shapeCast_self]
  rw [addf_apply, addf_apply, prod_apply, prod_apply, bias_apply]
  rfl

/-- The body's arithmetic at an entry of a block whose two row-indexed operands hold, in row p, row r of the whole
    matrices: the dense step's entry (r, q) of the whole matrices. -/
theorem pay_apply_row (A0 A1 : Cert.SageSpec.Mat 100000 64) (W : Cert.SageSpec.Mat 64 64) (b : Cert.SageSpec.Mat 1 64)
    (W' : Cert.SageSpec.Mat 64 64) (x0 x1 : Vec Ideal S5000x64 .f32) (p : Fin 5000) (q : Fin 64) (r : Fin 100000)
    (h0 : ∀ k : Fin 64, x0 (ix2 p k) = A0 (ix2 r k)) (h1 : ∀ k : Fin 64, x1 (ix2 p k) = A1 (ix2 r k)) :
    k3_pay1 x0 x1 W W' b (ix2 p q) = Cert.SageSpec.lin A0 A1 W b W' (ix2 r q) := by
  rw [pay_apply]
  show Cert.SageSpec.linAt x0 x1 W b W' p q = Cert.SageSpec.linAt A0 A1 W b W' r q
  unfold Cert.SageSpec.linAt
  simp only [h0, h1]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the six windows at every point of the grid: the two row-indexed inputs and the output are at
    block (t, 0); the two weight matrices and the bias row are whole, at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The grid has 20 points. -/
theorem point_lt (t : Fin cfg3.N) : t.val < 20 := Nat.lt_of_lt_of_eq t.isLt N_3

/-- The first weight matrix's window is the whole matrix at every point. -/
theorem iblk_wl (c : Dev nD) (t : Fin cfg3.N) :
    (iblk3 V c 2 t : Vec Ideal S64x64 .f32) = (V c main_arg16 : S64x64.Idx → EReal) := by
  obtain ⟨-, -, -, -, e0, e1, -⟩ := block_indices t
  funext y
  show V c main_arg16 (((cfg3.win 2).blk t).view.emb y) = V c main_arg16 y
  refine congrArg _ (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- The bias row's window is the whole row at every point. -/
theorem iblk_b (c : Dev nD) (t : Fin cfg3.N) :
    (iblk3 V c 3 t : Vec Ideal S1x64 .f32) = (V c main_v94 : S1x64.Idx → EReal) := by
  obtain ⟨-, -, -, -, -, -, e0, e1, -⟩ := block_indices t
  funext y
  show V c main_v94 (((cfg3.win 3).blk t).view.emb y) = V c main_v94 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- The second weight matrix's window is the whole matrix at every point. -/
theorem iblk_wr (c : Dev nD) (t : Fin cfg3.N) :
    (iblk3 V c 4 t : Vec Ideal S64x64 .f32) = (V c main_arg18 : S64x64.Idx → EReal) := by
  obtain ⟨-, -, -, -, -, -, -, -, e0, e1, -⟩ := block_indices t
  funext y
  show V c main_arg18 (((cfg3.win 4).blk t).view.emb y) = V c main_arg18 y
  refine congrArg _ (funext fun a => Fin.ext ?_)
  match a with
  | ⟨0, _⟩ => show win3_4.index t (0 : Fin 2) * 64 + 1 * (y 0).val = (y 0).val; omega
  | ⟨1, _⟩ => show win3_4.index t (1 : Fin 2) * 64 + 1 * (y 1).val = (y 1).val; omega

/-- Row p of the first row-indexed window's block at point t is row 5000 t + p of its matrix. -/
theorem iblk_mean (c : Dev nD) (t : Fin cfg3.N) (p : Fin 5000) (k : Fin 64) (r : Fin 100000) (hr : r.val = t.val * 5000 + p.val) :
    (iblk3 V c 0 t : Vec Ideal S5000x64 .f32) (ix2 p k) = (V c main_v91 : S100000x64.Idx → EReal) (ix2 r k) := by
  obtain ⟨e0, e1, -⟩ := block_indices t
  show V c main_v91 (((cfg3.win 0).blk t).view.emb (ix2 p k)) = V c main_v91 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- Row p of the second row-indexed window's block at point t is row 5000 t + p of its matrix. -/
theorem iblk_x (c : Dev nD) (t : Fin cfg3.N) (p : Fin 5000) (k : Fin 64) (r : Fin 100000) (hr : r.val = t.val * 5000 + p.val) :
    (iblk3 V c 1 t : Vec Ideal S5000x64 .f32) (ix2 p k) = (V c main_v53 : S100000x64.Idx → EReal) (ix2 r k) := by
  obtain ⟨-, -, e0, e1, -⟩ := block_indices t
  show V c main_v53 (((cfg3.win 1).blk t).view.emb (ix2 p k)) = V c main_v53 (ix2 r k)
  refine congrArg _ (funext fun a => Fin.ext ?_)
  match a with
  | ⟨0, _⟩ => show win3_1.index t (0 : Fin 2) * 5000 + 1 * p.val = r.val; omega
  | ⟨1, _⟩ => show win3_1.index t (1 : Fin 2) * 64 + 1 * k.val = k.val; omega

/-- Entry (p, q) of the output window's block at point t is entry (5000 t + p, q) of the array. -/
theorem out_emb (t : Fin cfg3.N) (p : Fin 5000) (q : Fin 64) (r : Fin 100000) (hr : r.val = t.val * 5000 + p.val) :
    ((cfg3.win 5).blk t).view.emb (ix2 p q) = (ix2 r q : S100000x64.Idx) := by
  obtain ⟨-, -, -, -, -, -, -, -, -, -, e0, e1⟩ := block_indices t
  refine funext fun a => Fin.ext ?_
  match a with
  | ⟨0, _⟩ => show win3_5.index t (0 : Fin 2) * 5000 + 1 * p.val = r.val; omega
  | ⟨1, _⟩ => show win3_5.index t (1 : Fin 2) * 64 + 1 * q.val = q.val; omega

/-- What point t writes back is block t of the dense step of the arrays as the region finds them. -/
theorem flushed_eq (c : Dev nD) (t : Fin cfg3.N) :
    (dat3 (F := Ideal) V c).flushed 5 t = ((cfg3.win 5).blk t).view.read (Elt Ideal)
      (Cert.SageSpec.lin (V c main_v91) (V c main_v53) (V c main_arg16) (V c main_v94) (V c main_arg18)) := by
  show (cfg3.win 5).cut (grid3.coords t) ((dat3 V c).after 5 t) = _
  rw [after3_5]
  unfold out3_5
  rw [View.canon_unit_zero zero_offsets]
  simp only [View.ld_unit_zero (S := S5000x64) zero_offsets, View.ld_unit_zero (S := S64x64) zero_offsets, View.ld_unit_zero (S := S1x64) zero_offsets]
  rw [iblk_wl, iblk_b, iblk_wr]
  funext j
  obtain ⟨p, q, rfl⟩ : ∃ (p : Fin 5000) (q : Fin 64), j = ix2 p q := ⟨j 0, j 1, eq_ix2 j⟩
  have ht := point_lt t
  obtain ⟨r, hr⟩ : ∃ r : Fin 100000, r.val = t.val * 5000 + p.val := ⟨⟨t.val * 5000 + p.val, by have := p.isLt; omega⟩, rfl⟩
  show k3_pay1 (iblk3 V c 0 t) (iblk3 V c 1 t) (V c main_arg16) (V c main_arg18) (V c main_v94) (ix2 p q)
    = Cert.SageSpec.lin (V c main_v91) (V c main_v53) (V c main_arg16) (V c main_v94) (V c main_arg18) (((cfg3.win 5).blk t).view.emb (ix2 p q))
  rw [out_emb t p q r hr]
  exact pay_apply_row _ _ _ _ _ _ _ p q r (fun k => iblk_mean V c t p k r hr) (fun k => iblk_x V c t p k r hr)

/-- An index of the array is in point t's block iff each coordinate is in the block's range on its axis. -/
theorem mem_block (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v95).slice (win3_5.rect t)).set ↔ _
  rw [View.set_slice_whole, Rect.mem_set_unit]
  exact Iff.rfl

/-- Every index of the array is in the block of the point its row over 5000 names. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, Nat.lt_of_lt_of_eq (by omega : (i 0).val / 5000 < 20) N_3.symm⟩, rfl⟩
  obtain ⟨-, -, -, -, -, -, -, -, -, -, e0, e1⟩ := block_indices t
  refine ⟨t, flush3_5 t, ?_⟩
  rw [mem_block]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The array after the region: the dense step of the arrays as the region finds them. -/
theorem final3 (V : (c : Dev nD) → (b : Ref sig .tc) → Buf (Elt Ideal) ((c : Thread nD τ).loc b)) (c : Dev nD) :
    (dat3 (F := Ideal) V c).arrAt 5 cfg3.N
      = Cert.SageSpec.lin (V c main_v91) (V c main_v53) (V c main_arg16) (V c main_v94) (V c main_arg18) :=
  (dat3 (F := Ideal) V c).arrAt_eq_of_cover 5 _ (fun t _ => flushed_eq V c t) cover

end Cert.KernelIdeal.Region3

end
-- ==== Proof.Region4.lean ====
/-
  The edge classifier, block by block.

  The last region runs over the 1000000 rows of the joined endpoint features in 200 blocks of 5000 rows. At each
  grid point it loads one block of rows and the whole of the four small operands (two weight matrices, two bias
  rows), and stores one block of 5000 outputs: for a row of the block, a hidden layer of 64 rectified units — the
  row times the first weight matrix, plus the first bias — then that layer times the second weight matrix, plus the
  second bias, through the logistic function. Both products accumulate into zero, so at an entry each is the plain
  sum over the contracted coordinate; the roundings on the way into the products are the identity on the extended
  reals. An output row depends only on the same row of the features, so block t of the result is rows
  5000 t … 5000 t + 4999 of the classifier applied to the whole matrix; the 200 blocks cover every row, hence the
  result array after the region is the classifier of the feature matrix as the region found it.
-/
import proofs.«122769_j16733192585664_1_alg».proof.Proof.Gen.KernelIdeal.Frame
import proofs.«122769_j16733192585664_1_alg».proof.Proof.Spec
import proofs.«122769_j16733192585664_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region4

open Idealize.ShloMosaic Idealize.ShloMosaic.TcCoe Idealize.SL.Sem Cert.KernelIdeal Cert.KernelIdeal.Gen
open Idealize.ShloMosaic.ValueIdx
open Idealize.ShloMosaic.Pipeline (Dat)

/-- Two two-coordinate indices with the same coordinate values are equal. -/
theorem idx2_ext {n0 n1 : Nat} (e y : (⟨2, ![n0, n1]⟩ : Shape).Idx) (h0 : (e 0).val = (y 0).val)
    (h1 : (e 1).val = (y 1).val) : e = y :=
  funext fun d => Fin.ext (by match d with | ⟨0, _⟩ => exact h0 | ⟨1, _⟩ => exact h1)

/-! ## Where the two block products read their operands

  The hidden layer's product contracts the second axis of a [5000, 128] block with the first axis of the
  [128, 64] weights; the output's contracts the second axis of the [5000, 64] hidden layer with the first axis of
  the [64, 1] weights. At an entry (r, c) and a contraction coordinate k both read (r, k) and (k, c). -/

theorem hid_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem hid_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem hid_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem hid_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

theorem out_l0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl
theorem out_l1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem out_r0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem out_r1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-! ## One row of a block -/

/-- What the body stores for row p of a block is the classifier's value on row p of the loaded block of features. -/
theorem pay_eq (v0 : Vec Ideal S5000x128 .f32) (v3 : Vec Ideal S128x64 .f32) (v6 : Vec Ideal S1x64 .f32)
    (v13 : Vec Ideal S64x1 .f32) (v16 : Vec Ideal S1x1 .f32) (p : Fin 5000) :
    k4_pay1 v0 v3 v6 v13 v16 (ix2 p 0) = Cert.SageSpec.mlpAt v0 v3 v6 v13 v16 p := by
  unfold k4_pay1 Cert.SageSpec.mlpAt
  simp only [shapeCast_self]
  show Ideal.logistic (_ + _) = Ideal.logistic (_ + _)
  refine congrArg Ideal.logistic (congrArg₂ (· + ·) ?_ ?_)
  · refine (PlainDot.matmul_zero_apply dot_S5000x64_S64x1_S5000x1_1_0_0_1_n_n rfl rfl out_l0 out_l1 out_r0 out_r1 none _ _ (ix2 p 0)).trans ?_
    refine Finset.sum_congr rfl fun k _ => congrArg₂ (· * ·) ?_ rfl
    show max (_ + _) (Ideal.ofBits .f32 0x00000000#32) = max (_ + _) 0
    refine (congrArg (max _) Ideal.ofBits_zero_f32).trans (congrArg (max · 0) (congrArg₂ (· + ·) ?_ ?_))
    · exact PlainDot.matmul_zero_apply dot_S5000x128_S128x64_S5000x64_1_0_0_1_n_n rfl rfl hid_l0 hid_l1 hid_r0 hid_r1 none _ _ (ix2 p k)
    · exact broadcastTo_1b_ab_apply v6 _ p k
  · exact broadcastTo_1b_ab_apply v16 _ p 0

/-- The same when the loaded block of features is rows of a larger matrix: row p of the block being row r of the
    matrix, the stored value is the classifier of the matrix at row r. -/
theorem block_row {n : Nat} (A : Cert.SageSpec.Mat n 128) (W1 : Cert.SageSpec.Mat 128 64) (b1 : Cert.SageSpec.Mat 1 64)
    (W2 : Cert.SageSpec.Mat 64 1) (b2 : Cert.SageSpec.Mat 1 1)
    (x0 : Vec Ideal S5000x128 .f32) (x1 : Vec Ideal S128x64 .f32) (x2 : Vec Ideal S1x64 .f32)
    (x3 : Vec Ideal S64x1 .f32) (x4 : Vec Ideal S1x1 .f32) (p : Fin 5000) (r : Fin n)
    (h0 : ∀ j : Fin 128, x0 (ix2 p j) = A (ix2 r j)) (h1 : x1 = W1) (h2 : x2 = b1) (h3 : x3 = W2) (h4 : x4 = b2) :
    k4_pay1 x0 x1 x2 x3 x4 (ix2 p 0) = Cert.SageSpec.mlp A W1 b1 W2 b2 (ix2 r 0) := by
  rw [← h1, ← h2, ← h3, ← h4]
  refine (pay_eq x0 x1 x2 x3 x4 p).trans ?_
  show Cert.SageSpec.mlpAt x0 x1 x2 x3 x4 p = Cert.SageSpec.mlpAt A x1 x2 x3 x4 r
  unfold Cert.SageSpec.mlpAt
  simp only [h0]

/-! ## From blocks to the array -/

theorem hz : (![0, 0] : Fin 2 → Nat) = fun _ => 0 := funext fun a => by fin_cases a <;> rfl

/-- The block indices at a grid point, decided over the 200 points: the features' and the result's blocks are
    block t along the rows; every other operand is its one whole block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section AtEntryContents

variable (V : (c : Dev nD) → (b : Ref sig .tc) → Buf (Elt Ideal) ((c : Thread nD τ).loc b))

/-- What point t writes back is block t of the classifier of the feature matrix as the region finds it. -/
theorem flushed_eq (c : Dev nD) (t : Fin cfg4.N) :
    (dat4 (F := Ideal) V c).flushed 5 t
      = ((cfg4.win 5).blk t).view.read (Elt Ideal) (Cert.SageSpec.mlp (V c main_v110) (V c main_arg19) (V c main_v111) (V c main_arg21) (V c main_v112)) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x64) hz,
    View.ld_unit_zero (S := S1x64) hz, View.ld_unit_zero (S := S64x1) hz, View.ld_unit_zero (S := S1x1) hz]
  obtain ⟨e00, e01, e10, e11, e20, e21, e30, e31, e40, e41, e50, e51⟩ := idx_facts t
  have ht : t.val < 200 := Nat.lt_of_lt_of_eq t.isLt N_4
  funext j
  have hj0 : (j 0).val < 5000 := (j 0).isLt
  have hj1 : (j 1).val < 1 := (j 1).isLt
  show k4_pay1 (iblk4 V c 0 t) (iblk4 V c 1 t) (iblk4 V c 2 t) (iblk4 V c 3 t) (iblk4 V c 4 t)
        ((cfg4.win 5).xinj (grid4.coords t) j)
      = Cert.SageSpec.mlp (V c main_v110) (V c main_arg19) (V c main_v111) (V c main_arg21) (V c main_v112) (((cfg4.win 5).blk t).view.emb j)
  have hx : (cfg4.win 5).xinj (grid4.coords t) j = ix2 (⟨(j 0).val, hj0⟩ : Fin 5000) (0 : Fin 1) :=
    idx2_ext _ _ rfl (by show (j 1).val = 0; omega)
  have he : ((cfg4.win 5).blk t).view.emb j = ix2 (⟨t.val * 5000 + (j 0).val, by omega⟩ : Fin 1000000) (0 : Fin 1) :=
    idx2_ext _ _ (by show win4_5.index t (0 : Fin 2) * 5000 + 1 * (j 0).val = t.val * 5000 + (j 0).val; omega)
      (by show win4_5.index t (1 : Fin 2) * 1 + 1 * (j 1).val = 0; omega)
  have h0 : ∀ jj : Fin 128, (iblk4 V c 0 t : S5000x128.Idx → EReal) (ix2 (⟨(j 0).val, hj0⟩ : Fin 5000) jj)
      = (V c main_v110 : S1000000x128.Idx → EReal) (ix2 (⟨t.val * 5000 + (j 0).val, by omega⟩ : Fin 1000000) jj) := fun jj => by
    show V c main_v110 (((cfg4.win 0).blk t).view.emb (ix2 (⟨(j 0).val, hj0⟩ : Fin 5000) jj)) = _
    exact congrArg (V c main_v110) (idx2_ext _ _
      (by show win4_0.index t (0 : Fin 2) * 5000 + 1 * (j 0).val = t.val * 5000 + (j 0).val; omega)
      (by show win4_0.index t (1 : Fin 2) * 128 + 1 * jj.val = jj.val; omega))
  have h1 : (iblk4 V c 1 t : S128x64.Idx → EReal) = V c main_arg19 := funext fun y => by
    show V c main_arg19 (((cfg4.win 1).blk t).view.emb y) = V c main_arg19 y
    exact congrArg (V c main_arg19) (idx2_ext _ _
      (by show win4_1.index t (0 : Fin 2) * 128 + 1 * (y 0).val = (y 0).val; omega)
      (by show win4_1.index t (1 : Fin 2) * 64 + 1 * (y 1).val = (y 1).val; omega))
  have h2 : (iblk4 V c 2 t : S1x64.Idx → EReal) = V c main_v111 := funext fun y => by
    show V c main_v111 (((cfg4.win 2).blk t).view.emb y) = V c main_v111 y
    exact congrArg (V c main_v111) (idx2_ext _ _
      (by show win4_2.index t (0 : Fin 2) * 1 + 1 * (y 0).val = (y 0).val; omega)
      (by show win4_2.index t (1 : Fin 2) * 64 + 1 * (y 1).val = (y 1).val; omega))
  have h3 : (iblk4 V c 3 t : S64x1.Idx → EReal) = V c main_arg21 := funext fun y => by
    show V c main_arg21 (((cfg4.win 3).blk t).view.emb y) = V c main_arg21 y
    exact congrArg (V c main_arg21) (idx2_ext _ _
      (by show win4_3.index t (0 : Fin 2) * 64 + 1 * (y 0).val = (y 0).val; omega)
      (by show win4_3.index t (1 : Fin 2) * 1 + 1 * (y 1).val = (y 1).val; omega))
  have h4 : (iblk4 V c 4 t : S1x1.Idx → EReal) = V c main_v112 := funext fun y => by
    show V c main_v112 (((cfg4.win 4).blk t).view.emb y) = V c main_v112 y
    exact congrArg (V c main_v112) (idx2_ext _ _
      (by show win4_4.index t (0 : Fin 2) * 1 + 1 * (y 0).val = (y 0).val; omega)
      (by show win4_4.index t (1 : Fin 2) * 1 + 1 * (y 1).val = (y 1).val; omega))
  rw [hx, he]
  exact block_row (V c main_v110) (V c main_arg19) (V c main_v111) (V c main_arg21) (V c main_v112)
    (iblk4 V c 0 t) (iblk4 V c 1 t) (iblk4 V c 2 t) (iblk4 V c 3 t) (iblk4 V c 4 t)
    ⟨(j 0).val, hj0⟩ ⟨t.val * 5000 + (j 0).val, by omega⟩ h0 h1 h2 h3 h4

end AtEntryContents

/-- A row index of the result lies in point t's block iff it lies in the block's range on each axis. -/
theorem mem_blk (t : Fin cfg4.N) (i : S1000000x1.Idx) :
    i ∈ ((cfg4.win 5).blk t).view.set ↔ ∀ a : Fin 2, win4_5.index t a * S5000x1.size a ≤ (i a).val
      ∧ (i a).val < win4_5.index t a * S5000x1.size a + S5000x1.size a := by
  show i ∈ ((View.whole main_v113).slice (win4_5.rect t)).set ↔ _
  rw [View.set_slice_whole, Rect.mem_set_unit]
  exact Iff.rfl

/-- The result array after the region: the classifier of the feature matrix, the weights and the biases as the region
    finds them. Row r is written by the point r / 5000. -/
theorem final4 (V : (c : Dev nD) → (b : Ref sig .tc) → Buf (Elt Ideal) ((c : Thread nD τ).loc b)) (c : Dev nD) :
    (dat4 (F := Ideal) V c).arrAt 5 cfg4.N
      = Cert.SageSpec.mlp (V c main_v110) (V c main_arg19) (V c main_v111) (V c main_arg21) (V c main_v112) :=
  (dat4 (F := Ideal) V c).arrAt_eq_of_cover 5 (Cert.SageSpec.mlp (V c main_v110) (V c main_arg19) (V c main_v111) (V c main_arg21) (V c main_v112))
    (fun t _ => flushed_eq V c t) fun i => by
      have hi0 : (i 0).val < 1000000 := (i 0).isLt
      have hi1 : (i 1).val < 1 := (i 1).isLt
      have hN : cfg4.N = 200 := N_4
      have hlt : (i 0).val / 5000 < cfg4.N := by rw [hN]; omega
      obtain ⟨e00, e01, e10, e11, e20, e21, e30, e31, e40, e41, e50, e51⟩ := idx_facts ⟨(i 0).val / 5000, hlt⟩
      refine ⟨⟨(i 0).val / 5000, hlt⟩, flush4_5 _, ?_⟩
      rw [mem_blk]
      intro a
      match a with
      | ⟨0, _⟩ =>
        show win4_5.index ⟨(i 0).val / 5000, hlt⟩ (0 : Fin 2) * 5000 ≤ (i 0).val
          ∧ (i 0).val < win4_5.index ⟨(i 0).val / 5000, hlt⟩ (0 : Fin 2) * 5000 + 5000
        rw [e50]; show (i 0).val / 5000 * 5000 ≤ (i 0).val ∧ (i 0).val < (i 0).val / 5000 * 5000 + 5000; omega
      | ⟨1, _⟩ =>
        show win4_5.index ⟨(i 0).val / 5000, hlt⟩ (1 : Fin 2) * 1 ≤ (i 1).val
          ∧ (i 1).val < win4_5.index ⟨(i 0).val / 5000, hlt⟩ (1 : Fin 2) * 1 + 1
        rw [e51]; omega

end Cert.KernelIdeal.Region4

end
-- ==== Proof.Chain.lean ====
/-
  The kernel program's boundaries, read against the reference's stages.

  The run of the kernel program passes ten boundaries: after each stretch of host operations and after each kernel
  region. At every boundary each buffer that a later step still reads holds a value of the launch memory alone, and
  that value is the reference's stage of the same meaning: the edge rows, the two projections, each layer's mean,
  each layer's output, the edge classifier's input. A stretch is evaluated by the lemmas about host stretches; a
  region's output array is the specification's dense step (or the edge classifier) of the arrays the region finds,
  which is the reference's stage by the stage lemmas; a buffer a step does not write is carried unchanged.
  The last boundary at the result buffer is the reference's result.
-/
import proofs.«122769_j16733192585664_1_alg».proof.Proof.Gen.KernelIdeal.Frame
import proofs.«122769_j16733192585664_1_alg».proof.Proof.Gen.ReferenceIdeal.Read
import proofs.«122769_j16733192585664_1_alg».proof.Proof.Spec
import proofs.«122769_j16733192585664_1_alg».proof.Proof.Host
import proofs.«122769_j16733192585664_1_alg».proof.Proof.RefStages
import proofs.«122769_j16733192585664_1_alg».proof.Proof.Region0
import proofs.«122769_j16733192585664_1_alg».proof.Proof.Region1
import proofs.«122769_j16733192585664_1_alg».proof.Proof.Region2
import proofs.«122769_j16733192585664_1_alg».proof.Proof.Region3
import proofs.«122769_j16733192585664_1_alg».proof.Proof.Region4
import Idealize.ShloMosaic.Lib.ValueLayout

set_option maxRecDepth 16384
set_option quotPrecheck false

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

local notation "⟦" b "⟧" => (Proc.devRef .tc b : DevRef τ sig)
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)
local notation "x15" => m ((c : Thread nD τ).loc main_arg15)
local notation "x16" => m ((c : Thread nD τ).loc main_arg16)
local notation "x17" => m ((c : Thread nD τ).loc main_arg17)
local notation "x18" => m ((c : Thread nD τ).loc main_arg18)
local notation "x19" => m ((c : Thread nD τ).loc main_arg19)
local notation "x20" => m ((c : Thread nD τ).loc main_arg20)
local notation "x21" => m ((c : Thread nD τ).loc main_arg21)
local notation "x22" => m ((c : Thread nD τ).loc main_arg22)

/-! ## After the first stretch -/

theorem W1_v1 : W1 m ρ c ⟦main_v1⟧ = val_main_v1 (F := Ideal) x2 := Host.s0_v1 (W0 m ρ c)
theorem W1_v3 : W1 m ρ c ⟦main_v3⟧ = val_main_v3 (F := Ideal) x2 := Host.s0_v3 (W0 m ρ c)
theorem W1_v7 : W1 m ρ c ⟦main_v7⟧ = val_main_v7 (F := Ideal) x0 x3 x4 := Host.s0_v7 (W0 m ρ c)
theorem W1_v11 : W1 m ρ c ⟦main_v11⟧ = val_main_v11 (F := Ideal) x1 x5 x6 := Host.s0_v11 (W0 m ρ c)
theorem W1_v30 : W1 m ρ c ⟦main_v30⟧ = val_main_v30 (F := Ideal) x0 x2 x3 x4 := Host.s0_v30 (W0 m ρ c)
theorem W1_v49 : W1 m ρ c ⟦main_v49⟧ = val_main_v55 (F := Ideal) x1 x2 x5 x6 := Host.s0_v49 (W0 m ρ c)
theorem W1_v50 : W1 m ρ c ⟦main_v50⟧ = shapeCast S1x64 x8 shapeCasts_S64_S1x64 := Host.s0_v50 (W0 m ρ c)
theorem W1_a7 : W1 m ρ c ⟦main_arg7⟧ = x7 := Host.keep0 (W0 m ρ c) main_arg7 (by decide)
theorem W1_a9 : W1 m ρ c ⟦main_arg9⟧ = x9 := Host.keep0 (W0 m ρ c) main_arg9 (by decide)
theorem W1_a10 : W1 m ρ c ⟦main_arg10⟧ = x10 := Host.keep0 (W0 m ρ c) main_arg10 (by decide)
theorem W1_a11 : W1 m ρ c ⟦main_arg11⟧ = x11 := Host.keep0 (W0 m ρ c) main_arg11 (by decide)
theorem W1_a12 : W1 m ρ c ⟦main_arg12⟧ = x12 := Host.keep0 (W0 m ρ c) main_arg12 (by decide)
theorem W1_a13 : W1 m ρ c ⟦main_arg13⟧ = x13 := Host.keep0 (W0 m ρ c) main_arg13 (by decide)
theorem W1_a14 : W1 m ρ c ⟦main_arg14⟧ = x14 := Host.keep0 (W0 m ρ c) main_arg14 (by decide)
theorem W1_a15 : W1 m ρ c ⟦main_arg15⟧ = x15 := Host.keep0 (W0 m ρ c) main_arg15 (by decide)

/-! ## After the first region: the first layer's output on the target side -/

theorem W2_v51 : W2 m ρ c ⟦main_v51⟧ = val_main_v62 (F := Ideal) x0 x1 x2 x3 x4 x5 x6 x7 x8 x9 := by
  refine (W2_arr m ρ c 5).trans ((Region0.final0 (V1 m ρ) c).trans ?_)
  show Cert.SageSpec.linRelu (W1 m ρ c ⟦main_v30⟧) (W1 m ρ c ⟦main_v11⟧) (W1 m ρ c ⟦main_arg7⟧) (W1 m ρ c ⟦main_v50⟧) (W1 m ρ c ⟦main_arg9⟧) = _
  rw [W1_v30, W1_v11, W1_a7, W1_a9]
  exact (Cert.ReferenceIdeal.Stages.stage62 x0 x1 x2 x3 x4 x5 x6 x7 x8 x9 _
    (fun q => by rw [W1_v50]; exact shapeCast_a_1a_apply _ _ 0 q)).symm
theorem W2_v1 : W2 m ρ c ⟦main_v1⟧ = val_main_v1 (F := Ideal) x2 := (W2_of_ne m ρ c main_v1 (by decide)).trans (W1_v1 m ρ c)
theorem W2_v3 : W2 m ρ c ⟦main_v3⟧ = val_main_v3 (F := Ideal) x2 := (W2_of_ne m ρ c main_v3 (by decide)).trans (W1_v3 m ρ c)
theorem W2_v7 : W2 m ρ c ⟦main_v7⟧ = val_main_v7 (F := Ideal) x0 x3 x4 := (W2_of_ne m ρ c main_v7 (by decide)).trans (W1_v7 m ρ c)
theorem W2_v49 : W2 m ρ c ⟦main_v49⟧ = val_main_v55 (F := Ideal) x1 x2 x5 x6 := (W2_of_ne m ρ c main_v49 (by decide)).trans (W1_v49 m ρ c)
theorem W2_a10 : W2 m ρ c ⟦main_arg10⟧ = x10 := (W2_of_ne m ρ c main_arg10 (by decide)).trans (W1_a10 m ρ c)
theorem W2_a11 : W2 m ρ c ⟦main_arg11⟧ = x11 := (W2_of_ne m ρ c main_arg11 (by decide)).trans (W1_a11 m ρ c)
theorem W2_a12 : W2 m ρ c ⟦main_arg12⟧ = x12 := (W2_of_ne m ρ c main_arg12 (by decide)).trans (W1_a12 m ρ c)
theorem W2_a13 : W2 m ρ c ⟦main_arg13⟧ = x13 := (W2_of_ne m ρ c main_arg13 (by decide)).trans (W1_a13 m ρ c)
theorem W2_a14 : W2 m ρ c ⟦main_arg14⟧ = x14 := (W2_of_ne m ρ c main_arg14 (by decide)).trans (W1_a14 m ρ c)
theorem W2_a15 : W2 m ρ c ⟦main_arg15⟧ = x15 := (W2_of_ne m ρ c main_arg15 (by decide)).trans (W1_a15 m ρ c)

/-! ## After the second stretch -/

theorem W3_v52 : W3 m ρ c ⟦main_v52⟧ = shapeCast S1x64 x11 shapeCasts_S64_S1x64 :=
  (Host.s1_v52 (W2 m ρ c)).trans (by rw [W2_a11])
theorem W3_v1 : W3 m ρ c ⟦main_v1⟧ = val_main_v1 (F := Ideal) x2 := (Host.keep1 (W2 m ρ c) main_v1 (by decide)).trans (W2_v1 m ρ c)
theorem W3_v3 : W3 m ρ c ⟦main_v3⟧ = val_main_v3 (F := Ideal) x2 := (Host.keep1 (W2 m ρ c) main_v3 (by decide)).trans (W2_v3 m ρ c)
theorem W3_v7 : W3 m ρ c ⟦main_v7⟧ = val_main_v7 (F := Ideal) x0 x3 x4 := (Host.keep1 (W2 m ρ c) main_v7 (by decide)).trans (W2_v7 m ρ c)
theorem W3_v49 : W3 m ρ c ⟦main_v49⟧ = val_main_v55 (F := Ideal) x1 x2 x5 x6 := (Host.keep1 (W2 m ρ c) main_v49 (by decide)).trans (W2_v49 m ρ c)
theorem W3_v51 : W3 m ρ c ⟦main_v51⟧ = val_main_v62 (F := Ideal) x0 x1 x2 x3 x4 x5 x6 x7 x8 x9 :=
  (Host.keep1 (W2 m ρ c) main_v51 (by decide)).trans (W2_v51 m ρ c)
theorem W3_a10 : W3 m ρ c ⟦main_arg10⟧ = x10 := (Host.keep1 (W2 m ρ c) main_arg10 (by decide)).trans (W2_a10 m ρ c)
theorem W3_a12 : W3 m ρ c ⟦main_arg12⟧ = x12 := (Host.keep1 (W2 m ρ c) main_arg12 (by decide)).trans (W2_a12 m ρ c)
theorem W3_a13 : W3 m ρ c ⟦main_arg13⟧ = x13 := (Host.keep1 (W2 m ρ c) main_arg13 (by decide)).trans (W2_a13 m ρ c)
theorem W3_a14 : W3 m ρ c ⟦main_arg14⟧ = x14 := (Host.keep1 (W2 m ρ c) main_arg14 (by decide)).trans (W2_a14 m ρ c)
theorem W3_a15 : W3 m ρ c ⟦main_arg15⟧ = x15 := (Host.keep1 (W2 m ρ c) main_arg15 (by decide)).trans (W2_a15 m ρ c)

/-! ## After the second region: the first layer's output on the source side -/

theorem W4_v53 : W4 m ρ c ⟦main_v53⟧ = val_main_v63 (F := Ideal) x0 x1 x2 x3 x4 x5 x6 x10 x11 x12 := by
  refine (W4_arr m ρ c 5).trans ((Region1.final1 (V3 m ρ) c).trans ?_)
  show Cert.SageSpec.linRelu (W3 m ρ c ⟦main_v49⟧) (W3 m ρ c ⟦main_v7⟧) (W3 m ρ c ⟦main_arg10⟧) (W3 m ρ c ⟦main_v52⟧) (W3 m ρ c ⟦main_arg12⟧) = _
  rw [W3_v49, W3_v7, W3_a10, W3_a12]
  exact (Cert.ReferenceIdeal.Stages.stage63 x0 x1 x2 x3 x4 x5 x6 x10 x11 x12 _
    (fun q => by rw [W3_v52]; exact shapeCast_a_1a_apply _ _ 0 q)).symm
theorem W4_v1 : W4 m ρ c ⟦main_v1⟧ = val_main_v1 (F := Ideal) x2 := (W4_of_ne m ρ c main_v1 (by decide)).trans (W3_v1 m ρ c)
theorem W4_v3 : W4 m ρ c ⟦main_v3⟧ = val_main_v3 (F := Ideal) x2 := (W4_of_ne m ρ c main_v3 (by decide)).trans (W3_v3 m ρ c)
theorem W4_v51 : W4 m ρ c ⟦main_v51⟧ = val_main_v62 (F := Ideal) x0 x1 x2 x3 x4 x5 x6 x7 x8 x9 :=
  (W4_of_ne m ρ c main_v51 (by decide)).trans (W3_v51 m ρ c)
theorem W4_a13 : W4 m ρ c ⟦main_arg13⟧ = x13 := (W4_of_ne m ρ c main_arg13 (by decide)).trans (W3_a13 m ρ c)
theorem W4_a14 : W4 m ρ c ⟦main_arg14⟧ = x14 := (W4_of_ne m ρ c main_arg14 (by decide)).trans (W3_a14 m ρ c)
theorem W4_a15 : W4 m ρ c ⟦main_arg15⟧ = x15 := (W4_of_ne m ρ c main_arg15 (by decide)).trans (W3_a15 m ρ c)

/-! ## After the third stretch: the second layer's two means -/

theorem W5_v72 : W5 m ρ c ⟦main_v72⟧ = val_main_v82 (F := Ideal) x0 x1 x2 x3 x4 x5 x6 x10 x11 x12 :=
  Host.s2_v72 (W4 m ρ c) x0 x1 x2 x3 x4 x5 x6 x10 x11 x12 (W4_v53 m ρ c) (W4_v1 m ρ c) (W4_v3 m ρ c)
theorem W5_v91 : W5 m ρ c ⟦main_v91⟧ = val_main_v107 (F := Ideal) x0 x1 x2 x3 x4 x5 x6 x7 x8 x9 :=
  Host.s2_v91 (W4 m ρ c) x0 x1 x2 x3 x4 x5 x6 x7 x8 x9 (W4_v51 m ρ c) (W4_v1 m ρ c) (W4_v3 m ρ c)
theorem W5_v92 : W5 m ρ c ⟦main_v92⟧ = shapeCast S1x64 x14 shapeCasts_S64_S1x64 :=
  (Host.s2_v92 (W4 m ρ c)).trans (by rw [W4_a14])
theorem W5_v1 : W5 m ρ c ⟦main_v1⟧ = val_main_v1 (F := Ideal) x2 := (Host.keep2 (W4 m ρ c) main_v1 (by decide)).trans (W4_v1 m ρ c)
theorem W5_v3 : W5 m ρ c ⟦main_v3⟧ = val_main_v3 (F := Ideal) x2 := (Host.keep2 (W4 m ρ c) main_v3 (by decide)).trans (W4_v3 m ρ c)
theorem W5_v51 : W5 m ρ c ⟦main_v51⟧ = val_main_v62 (F := Ideal) x0 x1 x2 x3 x4 x5 x6 x7 x8 x9 :=
  (Host.keep2 (W4 m ρ c) main_v51 (by decide)).trans (W4_v51 m ρ c)
theorem W5_v53 : W5 m ρ c ⟦main_v53⟧ = val_main_v63 (F := Ideal) x0 x1 x2 x3 x4 x5 x6 x10 x11 x12 :=
  (Host.keep2 (W4 m ρ c) main_v53 (by decide)).trans (W4_v53 m ρ c)
theorem W5_a13 : W5 m ρ c ⟦main_arg13⟧ = x13 := (Host.keep2 (W4 m ρ c) main_arg13 (by decide)).trans (W4_a13 m ρ c)
theorem W5_a15 : W5 m ρ c ⟦main_arg15⟧ = x15 := (Host.keep2 (W4 m ρ c) main_arg15 (by decide)).trans (W4_a15 m ρ c)

/-! ## The arguments the last regions read, walked back from the last boundary (a region leaves its input arrays as it found them) -/

theorem W9_a16 : W9 m ρ c ⟦main_arg16⟧ = x16 := (W10_of_ne m ρ c main_arg16 (by decide)).symm.trans (W10_main_arg16 m ρ c)
theorem W9_a17 : W9 m ρ c ⟦main_arg17⟧ = x17 := (W10_of_ne m ρ c main_arg17 (by decide)).symm.trans (W10_main_arg17 m ρ c)
theorem W9_a18 : W9 m ρ c ⟦main_arg18⟧ = x18 := (W10_of_ne m ρ c main_arg18 (by decide)).symm.trans (W10_main_arg18 m ρ c)
theorem W9_a19 : W9 m ρ c ⟦main_arg19⟧ = x19 :=
  ((W10_arr m ρ c 1).trans (((dat4 (V9 m ρ) c).arrAt_in 1 rfl _).trans (A_eq4 (V9 m ρ) c 1))).symm.trans (W10_main_arg19 m ρ c)
theorem W9_a20 : W9 m ρ c ⟦main_arg20⟧ = x20 := (W10_of_ne m ρ c main_arg20 (by decide)).symm.trans (W10_main_arg20 m ρ c)
theorem W9_a21 : W9 m ρ c ⟦main_arg21⟧ = x21 :=
  ((W10_arr m ρ c 3).trans (((dat4 (V9 m ρ) c).arrAt_in 3 rfl _).trans (A_eq4 (V9 m ρ) c 3))).symm.trans (W10_main_arg21 m ρ c)
theorem W9_a22 : W9 m ρ c ⟦main_arg22⟧ = x22 := (W10_of_ne m ρ c main_arg22 (by decide)).symm.trans (W10_main_arg22 m ρ c)
theorem W8_a16 : W8 m ρ c ⟦main_arg16⟧ = x16 := (Host.keep4 (W8 m ρ c) main_arg16 (by decide)).symm.trans (W9_a16 m ρ c)
theorem W8_a17 : W8 m ρ c ⟦main_arg17⟧ = x17 := (Host.keep4 (W8 m ρ c) main_arg17 (by decide)).symm.trans (W9_a17 m ρ c)
theorem W8_a18 : W8 m ρ c ⟦main_arg18⟧ = x18 := (Host.keep4 (W8 m ρ c) main_arg18 (by decide)).symm.trans (W9_a18 m ρ c)
theorem W8_a20 : W8 m ρ c ⟦main_arg20⟧ = x20 := (Host.keep4 (W8 m ρ c) main_arg20 (by decide)).symm.trans (W9_a20 m ρ c)
theorem W8_a22 : W8 m ρ c ⟦main_arg22⟧ = x22 := (Host.keep4 (W8 m ρ c) main_arg22 (by decide)).symm.trans (W9_a22 m ρ c)
theorem W7_a16 : W7 m ρ c ⟦main_arg16⟧ = x16 :=
  ((W8_arr m ρ c 2).trans (((dat3 (V7 m ρ) c).arrAt_in 2 rfl _).trans (A_eq3 (V7 m ρ) c 2))).symm.trans (W8_a16 m ρ c)
theorem W7_a17 : W7 m ρ c ⟦main_arg17⟧ = x17 := (W8_of_ne m ρ c main_arg17 (by decide)).symm.trans (W8_a17 m ρ c)
theorem W7_a18 : W7 m ρ c ⟦main_arg18⟧ = x18 :=
  ((W8_arr m ρ c 4).trans (((dat3 (V7 m ρ) c).arrAt_in 4 rfl _).trans (A_eq3 (V7 m ρ) c 4))).symm.trans (W8_a18 m ρ c)
theorem W6_a17 : W6 m ρ c ⟦main_arg17⟧ = x17 := (Host.keep3 (W6 m ρ c) main_arg17 (by decide)).symm.trans (W7_a17 m ρ c)

/-! ## After the third region: the second layer's output on the target side -/

theorem W6_v93 : W6 m ρ c ⟦main_v93⟧
    = val_main_v88 (F := Ideal) x0 x1 x2 x3 x4 x5 x6 x7 x8 x9 x10 x11 x12 x13 x14 x15 := by
  refine (W6_arr m ρ c 5).trans ((Region2.final2 (V5 m ρ) c).trans ?_)
  show Cert.SageSpec.lin (W5 m ρ c ⟦main_v72⟧) (W5 m ρ c ⟦main_v51⟧) (W5 m ρ c ⟦main_arg13⟧) (W5 m ρ c ⟦main_v92⟧) (W5 m ρ c ⟦main_arg15⟧) = _
  rw [W5_v72, W5_v51, W5_a13, W5_a15]
  exact (Cert.ReferenceIdeal.Stages.stage88 x0 x1 x2 x3 x4 x5 x6 x7 x8 x9 x10 x11 x12 x13 x14 x15 _
    (fun q => by rw [W5_v92]; exact shapeCast_a_1a_apply _ _ 0 q)).symm
theorem W6_v1 : W6 m ρ c ⟦main_v1⟧ = val_main_v1 (F := Ideal) x2 := (W6_of_ne m ρ c main_v1 (by decide)).trans (W5_v1 m ρ c)
theorem W6_v3 : W6 m ρ c ⟦main_v3⟧ = val_main_v3 (F := Ideal) x2 := (W6_of_ne m ρ c main_v3 (by decide)).trans (W5_v3 m ρ c)
theorem W6_v53 : W6 m ρ c ⟦main_v53⟧ = val_main_v63 (F := Ideal) x0 x1 x2 x3 x4 x5 x6 x10 x11 x12 :=
  (W6_of_ne m ρ c main_v53 (by decide)).trans (W5_v53 m ρ c)
theorem W6_v91 : W6 m ρ c ⟦main_v91⟧ = val_main_v107 (F := Ideal) x0 x1 x2 x3 x4 x5 x6 x7 x8 x9 :=
  (W6_of_ne m ρ c main_v91 (by decide)).trans (W5_v91 m ρ c)

/-! ## After the fourth stretch -/

theorem W7_v94 : W7 m ρ c ⟦main_v94⟧ = shapeCast S1x64 x17 shapeCasts_S64_S1x64 :=
  (Host.s3_v94 (W6 m ρ c)).trans (by rw [W6_a17])
theorem W7_v1 : W7 m ρ c ⟦main_v1⟧ = val_main_v1 (F := Ideal) x2 := (Host.keep3 (W6 m ρ c) main_v1 (by decide)).trans (W6_v1 m ρ c)
theorem W7_v3 : W7 m ρ c ⟦main_v3⟧ = val_main_v3 (F := Ideal) x2 := (Host.keep3 (W6 m ρ c) main_v3 (by decide)).trans (W6_v3 m ρ c)
theorem W7_v53 : W7 m ρ c ⟦main_v53⟧ = val_main_v63 (F := Ideal) x0 x1 x2 x3 x4 x5 x6 x10 x11 x12 :=
  (Host.keep3 (W6 m ρ c) main_v53 (by decide)).trans (W6_v53 m ρ c)
theorem W7_v91 : W7 m ρ c ⟦main_v91⟧ = val_main_v107 (F := Ideal) x0 x1 x2 x3 x4 x5 x6 x7 x8 x9 :=
  (Host.keep3 (W6 m ρ c) main_v91 (by decide)).trans (W6_v91 m ρ c)
theorem W7_v93 : W7 m ρ c ⟦main_v93⟧
    = val_main_v88 (F := Ideal) x0 x1 x2 x3 x4 x5 x6 x7 x8 x9 x10 x11 x12 x13 x14 x15 :=
  (Host.keep3 (W6 m ρ c) main_v93 (by decide)).trans (W6_v93 m ρ c)

/-! ## After the fourth region: the second layer's output on the source side -/

theorem W8_v95 : W8 m ρ c ⟦main_v95⟧
    = val_main_v113 (F := Ideal) x0 x1 x2 x3 x4 x5 x6 x7 x8 x9 x10 x11 x12 x16 x17 x18 := by
  refine (W8_arr m ρ c 5).trans ((Region3.final3 (V7 m ρ) c).trans ?_)
  show Cert.SageSpec.lin (W7 m ρ c ⟦main_v91⟧) (W7 m ρ c ⟦main_v53⟧) (W7 m ρ c ⟦main_arg16⟧) (W7 m ρ c ⟦main_v94⟧) (W7 m ρ c ⟦main_arg18⟧) = _
  rw [W7_v91, W7_v53, W7_a16, W7_a18]
  exact (Cert.ReferenceIdeal.Stages.stage113 x0 x1 x2 x3 x4 x5 x6 x7 x8 x9 x10 x11 x12 x16 x17 x18 _
    (fun q => by rw [W7_v94]; exact shapeCast_a_1a_apply _ _ 0 q)).symm
theorem W8_v1 : W8 m ρ c ⟦main_v1⟧ = val_main_v1 (F := Ideal) x2 := (W8_of_ne m ρ c main_v1 (by decide)).trans (W7_v1 m ρ c)
theorem W8_v3 : W8 m ρ c ⟦main_v3⟧ = val_main_v3 (F := Ideal) x2 := (W8_of_ne m ρ c main_v3 (by decide)).trans (W7_v3 m ρ c)
theorem W8_v93 : W8 m ρ c ⟦main_v93⟧
    = val_main_v88 (F := Ideal) x0 x1 x2 x3 x4 x5 x6 x7 x8 x9 x10 x11 x12 x13 x14 x15 :=
  (W8_of_ne m ρ c main_v93 (by decide)).trans (W7_v93 m ρ c)

/-! ## After the last stretch: the edge classifier's input and its two bias rows -/

theorem W9_v110 : W9 m ρ c ⟦main_v110⟧
    = val_main_v128 (F := Ideal) x0 x1 x2 x3 x4 x5 x6 x7 x8 x9 x10 x11 x12 x13 x14 x15 x16 x17 x18 :=
  Host.s4_v110 (W8 m ρ c) x0 x1 x2 x3 x4 x5 x6 x7 x8 x9 x10 x11 x12 x13 x14 x15 x16 x17 x18
    (W8_v95 m ρ c) (W8_v93 m ρ c) (W8_v1 m ρ c) (W8_v3 m ρ c)
theorem W9_v111 : W9 m ρ c ⟦main_v111⟧ = shapeCast S1x64 x20 shapeCasts_S64_S1x64 :=
  (Host.s4_v111 (W8 m ρ c)).trans (by rw [W8_a20])
theorem W9_v112 : W9 m ρ c ⟦main_v112⟧ = shapeCast S1x1 x22 shapeCasts_S1_S1x1 :=
  (Host.s4_v112 (W8 m ρ c)).trans (by rw [W8_a22])

/-! ## After the last region: the result -/

/-- The result array the kernel program ends with is the reference's result of the same arguments. -/
theorem W10_v113 : W10 m ρ c ⟦main_v113⟧
    = val_main_v143 (F := Ideal) x0 x1 x2 x3 x4 x5 x6 x7 x8 x9 x10 x11 x12 x13 x14 x15 x16 x17 x18 x19 x20 x21 x22 := by
  refine (W10_arr m ρ c 5).trans ((Region4.final4 (V9 m ρ) c).trans ?_)
  show Cert.SageSpec.mlp (W9 m ρ c ⟦main_v110⟧) (W9 m ρ c ⟦main_arg19⟧) (W9 m ρ c ⟦main_v111⟧) (W9 m ρ c ⟦main_arg21⟧) (W9 m ρ c ⟦main_v112⟧) = _
  rw [W9_v110, W9_a19, W9_a21]
  exact (Cert.ReferenceIdeal.Stages.stage143 x0 x1 x2 x3 x4 x5 x6 x7 x8 x9 x10 x11 x12 x13 x14 x15 x16 x17 x18 x19 x20 x21 x22
    _ (fun q => by rw [W9_v111]; exact shapeCast_a_1a_apply _ _ 0 q)
    _ (by rw [W9_v112]; exact shapeCast_a_1a_apply _ _ 0 0)).symm

end Cert.KernelIdeal.Chain

end
-- ==== Proof.lean ====
/-
  A two-layer mean-aggregating graph network with an edge classifier: the tiled program against the plain one.

  Both programs project two tables of node features, then twice, in both directions of a bipartite edge list, average
  the rows of one side over the edges meeting each node of the other (a gather, a scatter-add, a quotient by the degree
  clamped below by one) and apply a dense step  (mean·Wl + b) + x·Wr, rectified after the first layer; finally each edge
  is scored by a small two-layer classifier on the two endpoint rows side by side. The tiled program computes the four
  dense steps and the classifier in kernel regions, block by block of 5000 rows; everything irregular is the same host
  operations in both programs.

  On the extended reals the two results are equal with no law of arithmetic at all: a block of rows of a matrix
  product depends only on those rows, so block by block and all at once give the same entries (Spec.lean, the Region
  modules); a product on the matrix unit into a zero accumulator and a host product are the same sum (LibPlainDot.lean);
  the kernel's logistic is the reference's 1 / (1 + exp(−·)) by definition; the host steps are the same operations
  on equal operands (Host.lean). The boundaries of the tiled program's run are matched one by one with the stages of the
  plain program (Chain.lean). The precondition (finite inputs) is never opened: nothing here cancels or distributes.
  The three frames are the programs' runs with the results forgotten; the idealization rewrote no operation.
-/
import proofs.«122769_j16733192585664_1_alg».proof.Defs
import proofs.«122769_j16733192585664_1_alg».proof.Proof.Gen.Kernel
import proofs.«122769_j16733192585664_1_alg».proof.Proof.Gen.Kernel.Skeleton
import proofs.«122769_j16733192585664_1_alg».proof.Proof.Gen.Kernel.Launch
import proofs.«122769_j16733192585664_1_alg».proof.Proof.Gen.Kernel.Points
import proofs.«122769_j16733192585664_1_alg».proof.Proof.Gen.Kernel.Frame
import proofs.«122769_j16733192585664_1_alg».proof.Proof.Gen.KernelIdeal
import proofs.«122769_j16733192585664_1_alg».proof.Proof.Gen.KernelIdeal.Skeleton
import proofs.«122769_j16733192585664_1_alg».proof.Proof.Gen.KernelIdeal.Launch
import proofs.«122769_j16733192585664_1_alg».proof.Proof.Gen.KernelIdeal.Points
import proofs.«122769_j16733192585664_1_alg».proof.Proof.Gen.KernelIdeal.Frame
import proofs.«122769_j16733192585664_1_alg».proof.Proof.Gen.ReferenceIdeal
import proofs.«122769_j16733192585664_1_alg».proof.Proof.Gen.Pre_finite_inputs
import proofs.«122769_j16733192585664_1_alg».proof.Proof.Gen.ReferenceIdeal.Run
import proofs.«122769_j16733192585664_1_alg».proof.Proof.Gen.ReferenceIdeal.Read
import proofs.«122769_j16733192585664_1_alg».proof.Proof.KRun
import proofs.«122769_j16733192585664_1_alg».proof.Proof.Chain
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ
/-- The idealized tiled program runs and keeps its arguments. -/
theorem frame_ki : Cert.frame_KernelIdeal := fun m ρ _ => Cert.KernelIdeal.Gen.frame m ρ
/-- The plain program runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the plain program's last stage of those arguments:
    the tiled one by its run with the result named and the chain of its boundaries, the plain one by its run read back. -/
theorem algebraic : Cert.algebraic_KernelIdeal_ReferenceIdeal := by
  intro m ρ m' ρ' _ hagree
  refine ⟨fun c => Cert.ReferenceIdeal.Read.val_main_v143 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Chain.W10_v113 m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22⟩ := hagree c
    rw [Cert.ReferenceIdeal.Read.val_main_v143_eq, h0, h1, h2, h3, h4, h5, h6, h7, h8, h9, h10, h11, h12, h13, h14, h15,
      h16, h17, h18, h19, h20, h21, h22]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
